-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x200000 : Shape := ⟨2, ![2, 200000]⟩
abbrev S2x500000 : Shape := ⟨2, ![2, 500000]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg17 : FVec F S768x256 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S768x256 .f32 := Host.absf main_arg17
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S256x128 .f32 := Host.absf main_arg18
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg14 : FVec F S256x256 .f32) (main_arg15 : FVec F S256x256 .f32) (main_arg16 : FVec F S256 .f32) (main_arg17 : FVec F S768x256 .f32) (main_arg18 : FVec F S256x128 .f32) (main_arg19 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg14
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg15
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg17 main_arg18 main_arg19 main_v63 main_v67

def fn_part2 {F : FTy → Type} [FloatOps F] (main_arg10 : FVec F S256 .f32) (main_arg11 : FVec F S1024x256 .f32) (main_arg12 : FVec F S1024x256 .f32) (main_arg13 : FVec F S256 .f32) (main_arg14 : FVec F S256x256 .f32) (main_arg15 : FVec F S256x256 .f32) (main_arg16 : FVec F S256 .f32) (main_arg17 : FVec F S768x256 .f32) (main_arg18 : FVec F S256x128 .f32) (main_arg19 : FVec F S128 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x256 .f32 := Host.absf main_arg11
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024x256 .f32 := Host.absf main_arg12
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_arg16 main_arg17 main_arg18 main_arg19 main_v48 main_v49 main_v50

def fn_part1 {F : FTy → Type} [FloatOps F] (main_arg7 : FVec F S768x1024 .f32) (main_arg8 : FVec F S1024 .f32) (main_arg9 : FVec F S1024x256 .f32) (main_arg10 : FVec F S256 .f32) (main_arg11 : FVec F S1024x256 .f32) (main_arg12 : FVec F S1024x256 .f32) (main_arg13 : FVec F S256 .f32) (main_arg14 : FVec F S256x256 .f32) (main_arg15 : FVec F S256x256 .f32) (main_arg16 : FVec F S256 .f32) (main_arg17 : FVec F S768x256 .f32) (main_arg18 : FVec F S256x128 .f32) (main_arg19 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S768x1024 .f32 := Host.absf main_arg7
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x256 .f32 := Host.absf main_arg9
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S50000x768 .f32) (main_arg1 : FVec F S50000x768 .f32) (main_arg2 : IVec S2x200000 32) (main_arg3 : IVec S2x200000 32) (main_arg4 : IVec S2x500000 32) (main_arg5 : FVec F S768x1024 .f32) (main_arg6 : FVec F S1024 .f32) (main_arg7 : FVec F S768x1024 .f32) (main_arg8 : FVec F S1024 .f32) (main_arg9 : FVec F S1024x256 .f32) (main_arg10 : FVec F S256 .f32) (main_arg11 : FVec F S1024x256 .f32) (main_arg12 : FVec F S1024x256 .f32) (main_arg13 : FVec F S256 .f32) (main_arg14 : FVec F S256x256 .f32) (main_arg15 : FVec F S256x256 .f32) (main_arg16 : FVec F S256 .f32) (main_arg17 : FVec F S768x256 .f32) (main_arg18 : FVec F S256x128 .f32) (main_arg19 : FVec F S128 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x768 .f32 := Host.absf main_arg1
  let main_cst_0 : FVec F S_ .f32 := constant S_ .f32 0x7F800000#32
  let main_v5 : FVec F S50000x768 .f32 := broadcastInDim S50000x768 ![] bcast_S_S50000x768 main_cst_0
  let main_v6 : IVec S50000x768 1 := cmpf .olt main_v4 main_v5
  let main_c_1 : IVec S_ 1 := constantI S_ 1 1#1
  let main_v7 : IVec S_ 1 := (fun x v => Host.reduce IntOp.andi x v reducesTo_S50000x768_S_d0_1 h_S_) main_v6 main_c_1
  let main_v8 : IVec S_ 1 := andi main_v3 main_v7
  let main_v9 : FVec F S768x1024 .f32 := Host.absf main_arg5
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000x768 : Shape := ⟨2, ![50000, 768]⟩
abbrev S2x200000 : Shape := ⟨2, ![2, 200000]⟩
abbrev S2x500000 : Shape := ⟨2, ![2, 500000]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S1x1024 : Shape := ⟨2, ![1, 1024]⟩
abbrev S50000x1024 : Shape := ⟨2, ![50000, 1024]⟩
abbrev S1000x768 : Shape := ⟨2, ![1000, 768]⟩
abbrev S1000x1024 : Shape := ⟨2, ![1000, 1024]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x1024 : Shape := ⟨2, ![200000, 1024]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S1000x256 : Shape := ⟨2, ![1000, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S1x128 : Shape := ⟨2, ![1, 128]⟩
abbrev S50000x128 : Shape := ⟨2, ![50000, 128]⟩
abbrev S1000x128 : Shape := ⟨2, ![1000, 128]⟩

abbrev nBuf : Space → Nat
  | .hbm => 119
  | .vmem => 45
  | .smem => 0
  | _ => 0

abbrev bufTy : (tb : Table) → Fin (tcTables nBuf tb) → BufTy
  | .hbm, ⟨0, _⟩ => ⟨S50000x768, .f32⟩
  | .hbm, ⟨1, _⟩ => ⟨S50000x768, .f32⟩
  | .hbm, ⟨2, _⟩ => ⟨S2x200000, .i32⟩
  | .hbm, ⟨3, _⟩ => ⟨S2x200000, .i32⟩
  | .hbm, ⟨4, _⟩ => ⟨S2x500000, .i32⟩
  | .hbm, ⟨5, _⟩ => ⟨S768x1024, .f32⟩
  | .hbm, ⟨6, _⟩ => ⟨S1024, .f32⟩
  | .hbm, ⟨7, _⟩ => ⟨S768x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1024x256, .f32⟩
  | .hbm, ⟨12, _⟩ => ⟨S1024x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256, .f32⟩
  | .hbm, ⟨17, _⟩ => ⟨S768x256, .f32⟩
  | .hbm, ⟨18, _⟩ => ⟨S256x128, .f32⟩
  | .hbm, ⟨19, _⟩ => ⟨S128, .f32⟩
  | .hbm, ⟨20, _⟩ => ⟨S1x1024, .f32⟩
  | .hbm, ⟨21, _⟩ => ⟨S50000x1024, .f32⟩
  | .hbm, ⟨22, _⟩ => ⟨S1x1024, .f32⟩
  | .hbm, ⟨23, _⟩ => ⟨S50000x1024, .f32⟩
  | .hbm, ⟨24, _⟩ => ⟨S1x200000, .i32⟩
  | .hbm, ⟨25, _⟩ => ⟨S200000, .i32⟩
  | .hbm, ⟨26, _⟩ => ⟨S1x200000, .i32⟩
  | .hbm, ⟨27, _⟩ => ⟨S200000, .i32⟩
  | .hbm, ⟨28, _⟩ => ⟨S_, .i32⟩
  | .hbm, ⟨29, _⟩ => ⟨S200000, .i32⟩
  | .hbm, ⟨30, _⟩ => ⟨S200000, .i1⟩
  | .hbm, ⟨31, _⟩ => ⟨S_, .i32⟩
  | .hbm, ⟨32, _⟩ => ⟨S200000, .i32⟩
  | .hbm, ⟨33, _⟩ => ⟨S200000, .i32⟩
  | .hbm, ⟨34, _⟩ => ⟨S200000, .i32⟩
  | .hbm, ⟨35, _⟩ => ⟨S200000x1, .i32⟩
  | .hbm, ⟨36, _⟩ => ⟨S200000x1024, .f32⟩
  | .hbm, ⟨37, _⟩ => ⟨S_, .f32⟩
  | .hbm, ⟨38, _⟩ => ⟨S50000x1024, .f32⟩
  | .hbm, ⟨39, _⟩ => ⟨S200000x1, .i32⟩
  | .hbm, ⟨40, _⟩ => ⟨S50000x1024, .f32⟩
  | .hbm, ⟨41, _⟩ => ⟨S_, .f32⟩
  | .hbm, ⟨42, _⟩ => ⟨S200000, .f32⟩
  | .hbm, ⟨43, _⟩ => ⟨S_, .f32⟩
  | .hbm, ⟨44, _⟩ => ⟨S50000, .f32⟩
  | .hbm, ⟨45, _⟩ => ⟨S200000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x1024, .f32⟩
  | .hbm, ⟨52, _⟩ => ⟨S50000x1024, .f32⟩
  | .hbm, ⟨53, _⟩ => ⟨S1x256, .f32⟩
  | .hbm, ⟨54, _⟩ => ⟨S50000x256, .f32⟩
  | .hbm, ⟨55, _⟩ => ⟨S1x200000, .i32⟩
  | .hbm, ⟨56, _⟩ => ⟨S200000, .i32⟩
  | .hbm, ⟨57, _⟩ => ⟨S1x200000, .i32⟩
  | .hbm, ⟨58, _⟩ => ⟨S200000, .i32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x1024, .f32⟩
  | .hbm, ⟨68, _⟩ => ⟨S_, .f32⟩
  | .hbm, ⟨69, _⟩ => ⟨S50000x1024, .f32⟩
  | .hbm, ⟨70, _⟩ => ⟨S200000x1, .i32⟩
  | .hbm, ⟨71, _⟩ => ⟨S50000x1024, .f32⟩
  | .hbm, ⟨72, _⟩ => ⟨S_, .f32⟩
  | .hbm, ⟨73, _⟩ => ⟨S200000, .f32⟩
  | .hbm, ⟨74, _⟩ => ⟨S_, .f32⟩
  | .hbm, ⟨75, _⟩ => ⟨S50000, .f32⟩
  | .hbm, ⟨76, _⟩ => ⟨S200000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x1024, .f32⟩
  | .hbm, ⟨83, _⟩ => ⟨S50000x1024, .f32⟩
  | .hbm, ⟨84, _⟩ => ⟨S1x256, .f32⟩
  | .hbm, ⟨85, _⟩ => ⟨S50000x256, .f32⟩
  | .hbm, ⟨86, _⟩ => ⟨S1x500000, .i32⟩
  | .hbm, ⟨87, _⟩ => ⟨S500000, .i32⟩
  | .hbm, ⟨88, _⟩ => ⟨S1x500000, .i32⟩
  | .hbm, ⟨89, _⟩ => ⟨S500000, .i32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x256, .f32⟩
  | .hbm, ⟨99, _⟩ => ⟨S_, .f32⟩
  | .hbm, ⟨100, _⟩ => ⟨S50000x256, .f32⟩
  | .hbm, ⟨101, _⟩ => ⟨S500000x1, .i32⟩
  | .hbm, ⟨102, _⟩ => ⟨S50000x256, .f32⟩
  | .hbm, ⟨103, _⟩ => ⟨S_, .f32⟩
  | .hbm, ⟨104, _⟩ => ⟨S500000, .f32⟩
  | .hbm, ⟨105, _⟩ => ⟨S_, .f32⟩
  | .hbm, ⟨106, _⟩ => ⟨S50000, .f32⟩
  | .hbm, ⟨107, _⟩ => ⟨S500000x1, .i32⟩
  | .hbm, ⟨108, _⟩ => ⟨S50000, .f32⟩
  | .hbm, ⟨109, _⟩ => ⟨S_, .f32⟩
  | .hbm, ⟨110, _⟩ => ⟨S50000, .f32⟩
  | .hbm, ⟨111, _⟩ => ⟨S50000, .f32⟩
  | .hbm, ⟨112, _⟩ => ⟨S50000x1, .f32⟩
  | .hbm, ⟨113, _⟩ => ⟨S50000x256, .f32⟩
  | .hbm, ⟨114, _⟩ => ⟨S50000x256, .f32⟩
  | .hbm, ⟨115, _⟩ => ⟨S1x256, .f32⟩
  | .hbm, ⟨116, _⟩ => ⟨S50000x256, .f32⟩
  | .hbm, ⟨117, _⟩ => ⟨S1x128, .f32⟩
  | .hbm, ⟨118, _⟩ => ⟨S50000x128, .f32⟩
  | .local _ .vmem, ⟨0, _⟩ => ⟨S1000x768, .f32⟩
  | .local _ .vmem, ⟨1, _⟩ => ⟨S1000x768, .f32⟩
  | .local _ .vmem, ⟨2, _⟩ => ⟨S768x1024, .f32⟩
  | .local _ .vmem, ⟨3, _⟩ => ⟨S1x1024, .f32⟩
  | .local _ .vmem, ⟨4, _⟩ => ⟨S1000x1024, .f32⟩
  | .local _ .vmem, ⟨5, _⟩ => ⟨S1000x1024, .f32⟩
  | .local _ .vmem, ⟨6, _⟩ => ⟨S1000x768, .f32⟩
  | .local _ .vmem, ⟨7, _⟩ => ⟨S1000x768, .f32⟩
  | .local _ .vmem, ⟨8, _⟩ => ⟨S768x1024, .f32⟩
  | .local _ .vmem, ⟨9, _⟩ => ⟨S1x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1000x1024, .f32⟩
  | .local _ .vmem, ⟨14, _⟩ => ⟨S1024x256, .f32⟩
  | .local _ .vmem, ⟨15, _⟩ => ⟨S1x256, .f32⟩
  | .local _ .vmem, ⟨16, _⟩ => ⟨S1000x1024, .f32⟩
  | .local _ .vmem, ⟨17, _⟩ => ⟨S1000x1024, .f32⟩
  | .local _ .vmem, ⟨18, _⟩ => ⟨S1024x256, .f32⟩
  | .local _ .vmem, ⟨19, _⟩ => ⟨S1000x256, .f32⟩
  | .local _ .vmem, ⟨20, _⟩ => ⟨S1000x256, .f32⟩
  | .local _ .vmem, ⟨21, _⟩ => ⟨S1000x1024, .f32⟩
  | .local _ .vmem, ⟨22, _⟩ => ⟨S1000x1024, .f32⟩
  | .local _ .vmem, ⟨23, _⟩ => ⟨S1024x256, .f32⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | .local _ .vmem, ⟨27, _⟩ => ⟨S256x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S256x256, .f32⟩
  | .local _ .vmem, ⟨33, _⟩ => ⟨S1x256, .f32⟩
  | .local _ .vmem, ⟨34, _⟩ => ⟨S1000x768, .f32⟩
  | .local _ .vmem, ⟨35, _⟩ => ⟨S1000x768, .f32⟩
  | .local _ .vmem, ⟨36, _⟩ => ⟨S768x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S256x128, .f32⟩
  | .local _ .vmem, ⟨42, _⟩ => ⟨S1x128, .f32⟩
  | .local _ .vmem, ⟨43, _⟩ => ⟨S1000x128, .f32⟩
  | .local _ .vmem, ⟨44, _⟩ => ⟨S1000x128, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_c_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S768x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S1024_S1x1024 : S1024.ShapeCasts S1x1024
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x1024_S768x1024_0_0 : ∀ a, (![0, 0] : Fin 2 → Nat) a + S768x1024.size a ≤ S768x1024.size a
  h_S768x1024 : 0 < S768x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S50000x1024 : S_.BroadcastsInDim S50000x1024 (![] : Fin 0 → Fin S50000x1024.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x1024_0_1 : S50000x1.BroadcastsInDim S50000x1024 (![0, 1] : Fin 2 → Fin S50000x1024.rank)
  shapeCasts_S256_S1x256 : S256.ShapeCasts S1x256
  shapeCasts_S1000x1024_S1000x1024 : S1000x1024.ShapeCasts S1000x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S768x256_S768x256_0_0 : ∀ a, (![0, 0] : Fin 2 → Nat) a + S768x256.size a ≤ S768x256.size a
  h_S768x256 : 0 < S768x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  dot_S1000x768_S768x1024_S1000x1024_1_0_0_1_n_n_wf : DotDims.WF S1000x768 S768x1024 S1000x1024 [1] [0] [0] [1] [] []
  gather_S50000x1024_S200000x1_S200000x1024_1_0_n_n_0_1_11024_wf : GatherDims.WF S50000x1024 S200000x1 S200000x1024 [1] [0] [] [0] [] 1 ![1, 1024]
  scatter_S50000x1024_S200000x1_S200000x1024_1_0_0_1_wf : ScatterDims.WF S50000x1024 S200000x1 S200000x1024 [1] [0] [0] 1
  scatter_S50000_S200000x1_S200000_n_0_0_1_wf : ScatterDims.WF S50000 S200000x1 S200000 [] [0] [0] 1
  dot_S1000x1024_S1024x256_S1000x256_1_0_0_1_n_n_wf : DotDims.WF S1000x1024 S1024x256 S1000x256 [1] [0] [0] [1] [] []
  dot_S1000x256_S256x256_S1000x256_1_0_0_1_n_n_wf : DotDims.WF S1000x256 S256x256 S1000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S1000x768_S768x256_S1000x256_1_0_0_1_n_n_wf : DotDims.WF S1000x768 S768x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .f32 = 32 ∨ (Rect.block (s := S768x1024) S768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S50000x1024.size a
  hwx0_3 : ∀ i : grid0.Coords, EltTy.bits .f32 = 32 ∨ (Rect.block (s := S50000x1024) S1000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S50000x768.size a
  hwx1_0 : ∀ i : grid1.Coords, EltTy.bits .f32 = 32 ∨ (Rect.block (s := S50000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1024.size a ≤ S768x1024.size a
  hwx1_1 : ∀ i : grid1.Coords, EltTy.bits .f32 = 32 ∨ (Rect.block (s := S768x1024) S768x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S50000x1024.size a
  hwx1_3 : ∀ i : grid1.Coords, EltTy.bits .f32 = 32 ∨ (Rect.block (s := S50000x1024) S1000x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S50000x1024.size a
  hwx2_0 : ∀ i : grid2.Coords, EltTy.bits .f32 = 32 ∨ (Rect.block (s := S50000x1024) S1000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1024.size a ≤ S50000x1024.size a
  hwx2_3 : ∀ i : grid2.Coords, EltTy.bits .f32 = 32 ∨ (Rect.block (s := S50000x1024) S1000x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S1024x256.size a
  hwx2_4 : ∀ i : grid2.Coords, EltTy.bits .f32 = 32 ∨ (Rect.block (s := S1024x256) S1024x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S50000x256.size a
  hwx2_5 : ∀ i : grid2.Coords, EltTy.bits .f32 = 32 ∨ (Rect.block (s := S50000x256) S1000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1024.size a ≤ S50000x1024.size a
  hwx3_0 : ∀ i : grid3.Coords, EltTy.bits .f32 = 32 ∨ (Rect.block (s := S50000x1024) S1000x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S1024x256.size a
  hwx3_1 : ∀ i : grid3.Coords, EltTy.bits .f32 = 32 ∨ (Rect.block (s := S1024x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S50000x256.size a
  hwx3_3 : ∀ i : grid3.Coords, EltTy.bits .f32 = 32 ∨ (Rect.block (s := S50000x256) S1000x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S50000x256.size a
  hwx3_5 : ∀ i : grid3.Coords, EltTy.bits .f32 = 32 ∨ (Rect.block (s := S50000x256) S1000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x768.size a ≤ S50000x768.size a
  hwx4_3 : ∀ i : grid4.Coords, EltTy.bits .f32 = 32 ∨ (Rect.block (s := S50000x768) S1000x768.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S768x256.size a ≤ S768x256.size a
  hwx4_4 : ∀ i : grid4.Coords, EltTy.bits .f32 = 32 ∨ (Rect.block (s := S768x256) S768x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x256.size a ≤ S50000x256.size a
  hwx4_5 : ∀ i : grid4.Coords, EltTy.bits .f32 = 32 ∨ (Rect.block (s := S50000x256) S1000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S50000x128.size a
  hwx5_3 : ∀ i : grid5.Coords, EltTy.bits .f32 = 32 ∨ (Rect.block (s := S50000x128) S1000x128.size (cc5_transform_3 i) (hinb5_3 i)).WholeWords (EltTy.packing .f32)

variable [Facts₀]

def dot_S1000x768_S768x1024_S1000x1024_1_0_0_1_n_n : DotDims S1000x768 S768x1024 S1000x1024 where
  lhsContracting := [1]
  rhsContracting := [0]
  lhsNonContracting := [0]
  rhsNonContracting := [1]
  lhsBatch := []
  rhsBatch := []
  wf := dot_S1000x768_S768x1024_S1000x1024_1_0_0_1_n_n_wf
def gather_S50000x1024_S200000x1_S200000x1024_1_0_n_n_0_1_11024 : GatherDims S50000x1024 S200000x1 S200000x1024 where
  offsetDims := [1]
  collapsedSliceDims := [0]
  operandBatchingDims := []
  startIndicesBatchingDims := []
  startIndexMap := [0]
  indexVectorDim := 1
  sliceSizes := ![1, 1024]
  wf := gather_S50000x1024_S200000x1_S200000x1024_1_0_n_n_0_1_11024_wf
def scatter_S50000x1024_S200000x1_S200000x1024_1_0_0_1 : ScatterDims S50000x1024 S200000x1 S200000x1024 where
  updateWindowDims := [1]
  insertedWindowDims := [0]
  scatterDimsToOperandDims := [0]
  indexVectorDim := 1
  wf := scatter_S50000x1024_S200000x1_S200000x1024_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S768x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1000x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1024x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S1000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S1024x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S1000x768.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S768x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S1000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v78) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x768 : Shape := ⟨2, ![50000, 768]⟩
abbrev S2x200000 : Shape := ⟨2, ![2, 200000]⟩
abbrev S2x500000 : Shape := ⟨2, ![2, 500000]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S50000x1024 : Shape := ⟨2, ![50000, 1024]⟩
abbrev S1x1024 : Shape := ⟨2, ![1, 1024]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x1024 : Shape := ⟨2, ![200000, 1024]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S50000x128 : Shape := ⟨2, ![50000, 128]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x768, .f32⟩
  | 1 => ⟨S50000x768, .f32⟩
  | 2 => ⟨S2x200000, .i32⟩
  | 3 => ⟨S2x200000, .i32⟩
  | 4 => ⟨S2x500000, .i32⟩
  | 5 => ⟨S768x1024, .f32⟩
  | 6 => ⟨S1024, .f32⟩
  | 7 => ⟨S768x1024, .f32⟩
  | 8 => ⟨S1024, .f32⟩
  | 9 => ⟨S1024x256, .f32⟩
  | 10 => ⟨S256, .f32⟩
  | 11 => ⟨S1024x256, .f32⟩
  | 12 => ⟨S1024x256, .f32⟩
  | 13 => ⟨S256, .f32⟩
  | 14 => ⟨S256x256, .f32⟩
  | 15 => ⟨S256x256, .f32⟩
  | 16 => ⟨S256, .f32⟩
  | 17 => ⟨S768x256, .f32⟩
  | 18 => ⟨S256x128, .f32⟩
  | 19 => ⟨S128, .f32⟩
  | 20 => ⟨S50000x1024, .f32⟩
  | 21 => ⟨S1x1024, .f32⟩
  | 22 => ⟨S50000x1024, .f32⟩
  | 23 => ⟨S50000x1024, .f32⟩
  | 24 => ⟨S50000x1024, .f32⟩
  | 25 => ⟨S1x1024, .f32⟩
  | 26 => ⟨S50000x1024, .f32⟩
  | 27 => ⟨S50000x1024, .f32⟩
  | 28 => ⟨S1x200000, .i32⟩
  | 29 => ⟨S200000, .i32⟩
  | 30 => ⟨S1x200000, .i32⟩
  | 31 => ⟨S200000, .i32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x1024, .f32⟩
  | 41 => ⟨S_, .f32⟩
  | 42 => ⟨S50000x1024, .f32⟩
  | 43 => ⟨S200000x1, .i32⟩
  | 44 => ⟨S50000x1024, .f32⟩
  | 45 => ⟨S_, .f32⟩
  | 46 => ⟨S200000, .f32⟩
  | 47 => ⟨S_, .f32⟩
  | 48 => ⟨S50000, .f32⟩
  | 49 => ⟨S200000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x1024, .f32⟩
  | 56 => ⟨S50000x1024, .f32⟩
  | 57 => ⟨S50000x256, .f32⟩
  | 58 => ⟨S1x256, .f32⟩
  | 59 => ⟨S50000x256, .f32⟩
  | 60 => ⟨S50000x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S1x200000, .i32⟩
  | 67 => ⟨S200000, .i32⟩
  | 68 => ⟨S1x200000, .i32⟩
  | 69 => ⟨S200000, .i32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x1024, .f32⟩
  | 79 => ⟨S_, .f32⟩
  | 80 => ⟨S50000x1024, .f32⟩
  | 81 => ⟨S200000x1, .i32⟩
  | 82 => ⟨S50000x1024, .f32⟩
  | 83 => ⟨S_, .f32⟩
  | 84 => ⟨S200000, .f32⟩
  | 85 => ⟨S_, .f32⟩
  | 86 => ⟨S50000, .f32⟩
  | 87 => ⟨S200000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x1024, .f32⟩
  | 94 => ⟨S50000x1024, .f32⟩
  | 95 => ⟨S50000x256, .f32⟩
  | 96 => ⟨S1x256, .f32⟩
  | 97 => ⟨S50000x256, .f32⟩
  | 98 => ⟨S50000x256, .f32⟩
  | 99 => ⟨S50000x256, .f32⟩
  | 100 => ⟨S50000x256, .f32⟩
  | 101 => ⟨S_, .f32⟩
  | 102 => ⟨S50000x256, .f32⟩
  | 103 => ⟨S50000x256, .f32⟩
  | 104 => ⟨S1x500000, .i32⟩
  | 105 => ⟨S500000, .i32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x256, .f32⟩
  | 117 => ⟨S_, .f32⟩
  | 118 => ⟨S50000x256, .f32⟩
  | 119 => ⟨S500000x1, .i32⟩
  | 120 => ⟨S50000x256, .f32⟩
  | 121 => ⟨S_, .f32⟩
  | 122 => ⟨S500000, .f32⟩
  | 123 => ⟨S_, .f32⟩
  | 124 => ⟨S50000, .f32⟩
  | 125 => ⟨S500000x1, .i32⟩
  | 126 => ⟨S50000, .f32⟩
  | 127 => ⟨S_, .f32⟩
  | _ => ⟨S50000x768, .f32⟩

abbrev hbmTy0_1 (i : Nat) : BufTy := match i % 128 with
  | 0 => ⟨S50000, .f32⟩
  | 1 => ⟨S50000, .f32⟩
  | 2 => ⟨S50000x1, .f32⟩
  | 3 => ⟨S50000x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S50000x256, .f32⟩
  | 10 => ⟨S50000x256, .f32⟩
  | 11 => ⟨S_, .f32⟩
  | 12 => ⟨S50000x256, .f32⟩
  | 13 => ⟨S50000x256, .f32⟩
  | 14 => ⟨S50000x128, .f32⟩
  | 15 => ⟨S1x128, .f32⟩
  | 16 => ⟨S50000x128, .f32⟩
  | 17 => ⟨S50000x128, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call0_cst : Ref sig .tc := ⟨.hbm, 63, rfl⟩
abbrev main_call0_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_4 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call1_cst : Ref sig .tc := ⟨.hbm, 101, rfl⟩
abbrev main_call1_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_10 : Ref sig .tc := ⟨.hbm, 108, rfl⟩
abbrev main_v72 : Ref sig .tc := ⟨.hbm, 109, rfl⟩
abbrev main_v73 : Ref sig .tc := ⟨.hbm, 110, rfl⟩
abbrev main_c_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_cst_14 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call2_cst : Ref sig .tc := ⟨.hbm, 139, rfl⟩
abbrev main_call2_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S50000x1024 : S_.BroadcastsInDim S50000x1024 (![] : Fin 0 → Fin S50000x1024.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x1024_0_1 : S50000x1.BroadcastsInDim S50000x1024 (![0, 1] : Fin 2 → Fin S50000x1024.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x768_S768x1024_S50000x1024_1_0_0_1_n_n_wf : DotDims.WF S50000x768 S768x1024 S50000x1024 [1] [0] [0] [1] [] []
  gather_S50000x1024_S200000x1_S200000x1024_1_0_n_n_0_1_11024_wf : GatherDims.WF S50000x1024 S200000x1 S200000x1024 [1] [0] [] [0] [] 1 ![1, 1024]
  scatter_S50000x1024_S200000x1_S200000x1024_1_0_0_1_wf : ScatterDims.WF S50000x1024 S200000x1 S200000x1024 [1] [0] [0] 1
  scatter_S50000_S200000x1_S200000_n_0_0_1_wf : ScatterDims.WF S50000 S200000x1 S200000 [] [0] [0] 1
  dot_S50000x1024_S1024x256_S50000x256_1_0_0_1_n_n_wf : DotDims.WF S50000x1024 S1024x256 S50000x256 [1] [0] [0] [1] [] []
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x768_S768x256_S50000x256_1_0_0_1_n_n_wf : DotDims.WF S50000x768 S768x256 S50000x256 [1] [0] [0] [1] [] []
  dot_S50000x256_S256x128_S50000x128_1_0_0_1_n_n_wf : DotDims.WF S50000x256 S256x128 S50000x128 [1] [0] [0] [1] [] []

variable [Facts₀]

def dot_S50000x768_S768x1024_S50000x1024_1_0_0_1_n_n : DotDims S50000x768 S768x1024 S50000x1024 where
  lhsContracting := [1]
  rhsContracting := [0]
  lhsNonContracting := [0]
  rhsNonContracting := [1]
  lhsBatch := []
  rhsBatch := []
  wf := dot_S50000x768_S768x1024_S50000x1024_1_0_0_1_n_n_wf
def gather_S50000x1024_S200000x1_S200000x1024_1_0_n_n_0_1_11024 : GatherDims S50000x1024 S200000x1 S200000x1024 where
  offsetDims := [1]
  collapsedSliceDims := [0]
  operandBatchingDims := []
  startIndicesBatchingDims := []
  startIndexMap := [0]
  indexVectorDim := 1
  sliceSizes := ![1, 1024]
  wf := gather_S50000x1024_S200000x1_S200000x1024_1_0_n_n_0_1_11024_wf
def scatter_S50000x1024_S200000x1_S200000x1024_1_0_0_1 : ScatterDims S50000x1024 S200000x1 S200000x1024 where
  updateWindowDims := [1]
  insertedWindowDims := [0]
  scatterDimsToOperandDims := [0]
  indexVectorDim := 1
  wf := scatter_S50000x1024_S200000x1_S200000x1024_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RunValue.lean ====
/-
  The kernel program's run with its result named.

  Every weakly fair execution of the six-region program terminates without a fault; at the end every buffer of a
  TensorCore that lives outside the regions holds the contents the chain of segment boundaries assigns to it (the
  fold of the host stretches and of the regions' write-backs through the launch memory), so the result buffer holds
  that chain's contents and each argument array is as launched.  The launch argument over the twelve segments is the
  one the frame uses; here the final read also reads the result buffer.
-/
import proofs.«171405_j59785944760472_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents and the arguments end as launched. -/
theorem run_value : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.RunValue

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«171405_j59785944760472_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«171405_j59785944760472_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«171405_j59785944760472_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibDenseLayers.lean ====
/-
  The two dense layers of the network, as functions of whole arrays, and the vector expressions that compute them.

  An affine layer sends an M×K array x, a K×N matrix W and a one-row bias b to the M×N array whose entry (r, j) is
  (∑ k, x (r, k) · W (k, j)) + b (0, j).  A neighbourhood layer adds a second product, of the node's own features
  with a second matrix, and takes the positive part:
  max (((∑ k, mean (r, k) · Wl (k, j)) + (∑ k, dst (r, k) · Wr (k, j))) + b (0, j)) 0.
  Both are read on the extended reals, where a change of float format is the identity and a matrix product into the
  zero accumulator is the textbook sum.  The kernel computes each layer tile by tile (a block of rows at a time); the
  host computes it with dot_general, a broadcast bias vector and a maximum with the zero constant, adding the bias
  BEFORE the second product.  Addition of extended reals is commutative and associative, so the two orders agree
  with no finiteness assumption.
-/
import proofs.«171405_j59785944760472_1_alg».proof.Proof.LibAffineBlock
import proofs.«171405_j59785944760472_1_alg».proof.Proof.LibHostAffine

noncomputable section

open scoped BigOperators

namespace Cert.LibDenseLayers

open Idealize.ShloMosaic Idealize.ShloMosaic.ValueIdx

variable {M K K' N : Nat}

/-- The affine layer with a one-row bias: entry (r, j) is (∑ k, x (r, k) · W (k, j)) + b (0, j). -/
def affineRow (x : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ k : Fin K, x (ix2 (i 0) k) * W (ix2 k (i 1))) + b (ix2 (0 : Fin 1) (i 1))

theorem affineRow_ix2 (x : FVec Ideal ⟨2, ![M, K]⟩ .f32) (W : FVec Ideal ⟨2, ![K, N]⟩ .f32) (b : FVec Ideal ⟨2, ![1, N]⟩ .f32)
    (r : Fin M) (j : Fin N) :
    affineRow x W b (ix2 r j) = (∑ k : Fin K, x (ix2 r k) * W (ix2 k j)) + b (ix2 (0 : Fin 1) j) := rfl

/-- The neighbourhood layer: the positive part of the sum of two products and a one-row bias. -/
def sageRow (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) : FVec Ideal ⟨2, ![M, N]⟩ .f32 :=
  fun i => max (((∑ k : Fin K, mean (ix2 (i 0) k) * Wl (ix2 k (i 1))) + (∑ k : Fin K', dst (ix2 (i 0) k) * Wr (ix2 k (i 1))))
    + b (ix2 (0 : Fin 1) (i 1))) 0

theorem sageRow_ix2 (mean : FVec Ideal ⟨2, ![M, K]⟩ .f32) (Wl : FVec Ideal ⟨2, ![K, N]⟩ .f32) (b : FVec Ideal ⟨2, ![1, N]⟩ .f32)
    (dst : FVec Ideal ⟨2, ![M, K']⟩ .f32) (Wr : FVec Ideal ⟨2, ![K', N]⟩ .f32) (r : Fin M) (j : Fin N) :
    sageRow mean Wl b dst Wr (ix2 r j)
      = max (((∑ k : Fin K, mean (ix2 r k) * Wl (ix2 k j)) + (∑ k : Fin K', dst (ix2 r k) * Wr (ix2 k j))) + b (ix2 (0 : Fin 1) j)) 0 := rfl

/-! ## The tile expressions of the kernel bodies -/

/-- One tile of the affine layer: the product of the rounded operands into the zero accumulator plus the broadcast
    bias row, at (p, q). -/
theorem linTile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    addf (matmul d none (truncf .bf16 x h1) (truncf .bf16 W h1) (constant (F := Ideal) ⟨2, ![M, N]⟩ .f32 0x00000000#32))
        (broadcastTo ⟨2, ![M, N]⟩ b hb) (ix2 p q)
      = (∑ k : Fin K, x (ix2 p k) * W (ix2 k q)) + b (ix2 (0 : Fin 1) q) :=
  Cert.LibAffineBlock.affine_apply d hlc hrc hln hrn hlb hrb none (truncf .bf16 x h1) (truncf .bf16 W h1) b hb p q

/-- One tile of the neighbourhood layer at (p, q). -/
theorem sageTile_apply (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32)
    (dst : FVec Ideal ⟨2, ![M, K']⟩ .f32) (Wr : FVec Ideal ⟨2, ![K', N]⟩ .f32) (b : FVec Ideal ⟨2, ![1, N]⟩ .f32)
    (h1 : FTy.bf16.bits < FTy.f32.bits) (hb : (⟨2, ![1, N]⟩ : Shape).Broadcasts ⟨2, ![M, N]⟩) (p : Fin M) (q : Fin N) :
    maximumf (addf (addf
          (matmul d1 none (truncf .bf16 mean h1) (truncf .bf16 Wl h1) (constant (F := Ideal) ⟨2, ![M, N]⟩ .f32 0x00000000#32))
          (matmul d2 none (truncf .bf16 dst h1) (truncf .bf16 Wr h1) (constant (F := Ideal) ⟨2, ![M, N]⟩ .f32 0x00000000#32)))
        (broadcastTo ⟨2, ![M, N]⟩ b hb))
      (broadcast ⟨2, ![M, N]⟩ (Scalar.ofBits (F := Ideal) .f32 0x00000000#32)) (ix2 p q)
      = max (((∑ k : Fin K, mean (ix2 p k) * Wl (ix2 k q)) + (∑ k : Fin K', dst (ix2 p k) * Wr (ix2 k q))) + b (ix2 (0 : Fin 1) q)) 0 := by
  rw [maximumf_apply, addf_apply, addf_apply,
    Cert.LibMatmulNN.matmul_zero_apply' d1 hlc hrc hln hrn hlb hrb none (truncf .bf16 mean h1) (truncf .bf16 Wl h1) p q,
    Cert.LibMatmulNN.matmul_zero_apply' d2 hlc' hrc' hln' hrn' hlb' hrb' none (truncf .bf16 dst h1) (truncf .bf16 Wr h1) p q,
    broadcastTo_1b_ab_apply b hb p q, broadcast_apply]
  show max _ (Ideal.ofBits .f32 0x00000000#32) = _
  rw [Ideal.ofBits_zero_f32]
  rfl

/-! ## The host expressions -/

/-- A vector reshaped to one row reads, at (0, j), its entry j. -/
theorem rowCast_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_two, Shape.rowMajor_val_one]; show j.val = 0 * N + j.val; omega)

/-- The host's affine layer (dot_general plus the bias vector broadcast to a row and then over the rows) is the
    affine layer of the bias reshaped to one row. -/
theorem hostAffine_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (Host.dotGeneral d none x W)
        (broadcastInDim ⟨2, ![M, N]⟩ (![0, 1] : Fin 2 → Fin 2) h2 (broadcastInDim ⟨2, ![1, N]⟩ (![1] : Fin 1 → Fin 2) h1 b))
      = affineRow x W (shapeCast ⟨2, ![1, N]⟩ b hc) := by
  funext i
  obtain ⟨r, j, rfl⟩ : ∃ (r : Fin M) (j : Fin N), i = ix2 r j := ⟨i 0, i 1, eq_ix2 i⟩
  rw [Cert.LibHostAffine.affine_apply d hlc hrc hln hrn hlb hrb none x W b h1 h2 r j, affineRow_ix2, rowCast_apply]

/-- The host's neighbourhood layer — (mean·Wl + bias) + dst·Wr, then the maximum with the zero constant — is the
    neighbourhood layer of the bias reshaped to one row: the two orders of the three summands agree because addition
    of extended reals is commutative and associative. -/
theorem hostSage_eq (d1 : DotDims ⟨2, ![M, K]⟩ ⟨2, ![K, N]⟩ ⟨2, ![M, N]⟩) (d2 : DotDims ⟨2, ![M, K']⟩ ⟨2, ![K', N]⟩ ⟨2, ![M, N]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (mean : FVec Ideal ⟨2, ![M, K]⟩ .f32) (Wl : FVec Ideal ⟨2, ![K, N]⟩ .f32) (b : FVec Ideal ⟨1, ![N]⟩ .f32)
    (dst : FVec Ideal ⟨2, ![M, K']⟩ .f32) (Wr : FVec Ideal ⟨2, ![K', N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩) :
    maximumf (addf (addf (Host.dotGeneral d1 none mean Wl)
          (broadcastInDim ⟨2, ![M, N]⟩ (![0, 1] : Fin 2 → Fin 2) h2 (broadcastInDim ⟨2, ![1, N]⟩ (![1] : Fin 1 → Fin 2) h1 b)))
        (Host.dotGeneral d2 none dst Wr))
      (broadcastInDim ⟨2, ![M, N]⟩ (![] : Fin 0 → Fin 2) h0 (constant (F := Ideal) ⟨0, ![]⟩ .f32 0x00000000#32))
      = sageRow mean Wl (shapeCast ⟨2, ![1, N]⟩ b hc) dst Wr := by
  funext i
  obtain ⟨r, j, rfl⟩ : ∃ (r : Fin M) (j : Fin N), i = ix2 r j := ⟨i 0, i 1, eq_ix2 i⟩
  rw [Cert.LibHostAffine.relu_apply, addf_apply,
    Cert.LibHostAffine.affine_apply d1 hlc hrc hln hrn hlb hrb none mean Wl b h1 h2 r j, sageRow_ix2, rowCast_apply]
  simp only [Host.dotGeneral]
  rw [Cert.LibDotGeneralNN.dotGeneral_apply d2 hlc' hrc' hln' hrn' hlb' hrb', add_right_comm]

end Cert.LibDenseLayers

end
-- ==== Proof.Blocks0.lean ====
/-
  Region 0 of the kernel program, an affine layer computed 1000 rows at a time.

  Grid point t loads rows 1000·t … 1000·t + 999 of the input array, the whole weight matrix and the whole bias
  row, and writes rows 1000·t … 1000·t + 999 of the output array.  Entry (p, q) of what it writes is
  (∑ k, x (1000·t + p, k) · W (k, q)) + b (0, q), which is entry (1000·t + p, q) of the affine layer of the whole
  arrays; the fifty row blocks tile the output array, so after the region the output array IS that layer of the
  arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks0

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile: the product of the two loaded blocks plus the bias row. -/
theorem pay_apply (v0 : Vec Ideal S1000x768 .f32) (v2 : Vec Ideal S768x1024 .f32) (v5 : Vec Ideal S1x1024 .f32) (p : Fin 1000) (q : Fin 1024) :
    k0_pay1 (F := Ideal) v0 v2 v5 (ix2 p q) = (∑ k : Fin 768, v0 (ix2 p k) * v2 (ix2 k q)) + v5 (ix2 (0 : Fin 1) q) := by
  unfold k0_pay1
  simp only [shapeCast_self]
  exact linTile_apply _ rfl rfl rfl rfl rfl rfl v0 v2 v5 _ _ p q

/-- The block index maps over the grid: the row block moves with the point, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the affine layer of the arrays the region found. -/
theorem flushed_eq (c : Dev nD) (t : Fin cfg0.N) :
    (dat0 V c).flushed 3 t = ((cfg0.win 3).blk t).view.read (Elt Ideal)
      (affineRow (M := 50000) (K := 768) (N := 1024) (V c main_arg0) (V c main_arg5) (V c main_v0)) := by
  show (cfg0.win 3).cut (grid0.coords t) ((dat0 V c).after 3 t) = _
  rw [after0_3]
  unfold out0_3
  rw [View.canon_unit_zero hz]
  simp only [View.ld_unit_zero (S := S1000x768) hz, View.ld_unit_zero (S := S768x1024) hz, View.ld_unit_zero (S := S1x1024) hz]
  obtain ⟨e0, e1, e2, e3, e4, e5, e6, e7⟩ := idx_facts t
  have ht : t.val < 50 := t.isLt
  funext j
  obtain ⟨p, q, rfl⟩ : ∃ (p : Fin 1000) (q : Fin 1024), j = ix2 p q := ⟨j 0, j 1, eq_ix2 j⟩
  have hp : p.val < 1000 := p.isLt
  have hq : q.val < 1024 := q.isLt
  show k0_pay1 (F := Ideal) (iblk0 V c 0 t) (iblk0 V c 1 t) (iblk0 V c 2 t) (ix2 p q)
    = affineRow (M := 50000) (K := 768) (N := 1024) (V c main_arg0) (V c main_arg5) (V c main_v0) (((cfg0.win 3).blk t).view.emb (ix2 p q))
  refine (pay_apply _ _ _ p q).trans ?_
  have hout : ((cfg0.win 3).blk t).view.emb (ix2 p q) = ix2 (⟨t.val * 1000 + p.val, by omega⟩ : Fin 50000) q := by
    funext a; apply Fin.ext
    match a with
    | ⟨0, _⟩ => show win0_3.index t (0 : Fin 2) * 1000 + 1 * p.val = t.val * 1000 + p.val; omega
    | ⟨1, _⟩ => show win0_3.index t (1 : Fin 2) * 1024 + 1 * q.val = q.val; omega
  rw [hout, affineRow_ix2]
  have h0 : ∀ k : Fin 768, iblk0 V c 0 t (ix2 p k) = V c main_arg0 (ix2 (⟨t.val * 1000 + p.val, by omega⟩ : Fin 50000) k) := fun k => by
    show V c main_arg0 (((cfg0.win 0).blk t).view.emb (ix2 p k)) = _
    refine congrArg _ ?_
    funext a; apply Fin.ext
    match a with
    | ⟨0, _⟩ => show win0_0.index t (0 : Fin 2) * 1000 + 1 * p.val = t.val * 1000 + p.val; omega
    | ⟨1, _⟩ => show win0_0.index t (1 : Fin 2) * 768 + 1 * k.val = k.val; omega
  have h1 : ∀ k : Fin 768, iblk0 V c 1 t (ix2 k q) = V c main_arg5 (ix2 k q) := fun k => by
    show V c main_arg5 (((cfg0.win 1).blk t).view.emb (ix2 k q)) = _
    refine congrArg _ ?_
    funext a; apply Fin.ext
    match a with
    | ⟨0, _⟩ => show win0_1.index t (0 : Fin 2) * 768 + 1 * k.val = k.val; omega
    | ⟨1, _⟩ => show win0_1.index t (1 : Fin 2) * 1024 + 1 * q.val = q.val; omega
  have h2 : iblk0 V c 2 t (ix2 (0 : Fin 1) q) = V c main_v0 (ix2 (0 : Fin 1) q) := by
    show V c main_v0 (((cfg0.win 2).blk t).view.emb (ix2 (0 : Fin 1) q)) = _
    refine congrArg _ ?_
    funext a; apply Fin.ext
    match a with
    | ⟨0, _⟩ => show win0_2.index t (0 : Fin 2) * 1 + 1 * 0 = 0; omega
    | ⟨1, _⟩ => show win0_2.index t (1 : Fin 2) * 1024 + 1 * q.val = q.val; omega
  rw [h2]
  refine congrArg (· + _) (Finset.sum_congr rfl fun k _ => ?_)
  rw [h0 k, h1 k]

/-- An index of the output array is in point t's block iff each coordinate is in the block's range on its axis. -/
theorem mem_blk (t : Fin cfg0.N) (i : S50000x1024.Idx) :
    i ∈ ((cfg0.win 3).blk t).view.set ↔ ∀ a : Fin 2, win0_3.index t a * S1000x1024.size a ≤ (i a).val ∧ (i a).val < win0_3.index t a * S1000x1024.size a + S1000x1024.size a := by
  show i ∈ ((View.whole main_v1).slice (win0_3.rect t)).set ↔ _
  rw [View.set_slice_whole, Rect.mem_set_unit]
  exact Iff.rfl

/-- Every index of the output array lies in the block of the point that owns its row. -/
theorem cover (i : S50000x1024.Idx) : ∃ t : Fin cfg0.N, (cfg0.win 3).flush t = true ∧ i ∈ ((cfg0.win 3).blk t).view.set := by
  have hi0 : (i 0).val < 50000 := (i 0).isLt
  have hi1 : (i 1).val < 1024 := (i 1).isLt
  refine ⟨⟨(i 0).val / 1000, by show (i 0).val / 1000 < 50; omega⟩, flush0_3 _, ?_⟩
  rw [mem_blk]
  obtain ⟨e0, e1, e2, e3, e4, e5, e6, e7⟩ := idx_facts ⟨(i 0).val / 1000, by show (i 0).val / 1000 < 50; omega⟩
  intro a
  match a with
  | ⟨0, _⟩ => show win0_3.index _ (0 : Fin 2) * 1000 ≤ (i 0).val ∧ (i 0).val < win0_3.index _ (0 : Fin 2) * 1000 + 1000; rw [e6]; show (i 0).val / 1000 * 1000 ≤ (i 0).val ∧ (i 0).val < (i 0).val / 1000 * 1000 + 1000; omega
  | ⟨1, _⟩ => show win0_3.index _ (1 : Fin 2) * 1024 ≤ (i 1).val ∧ (i 1).val < win0_3.index _ (1 : Fin 2) * 1024 + 1024; rw [e7]; omega

/-- After the region its output array is the affine layer of the arrays the region found. -/
theorem final (c : Dev nD) :
    (dat0 V c).arrAt 3 cfg0.N = affineRow (M := 50000) (K := 768) (N := 1024) (V c main_arg0) (V c main_arg5) (V c main_v0) :=
  (dat0 V c).arrAt_eq_of_cover 3 _ (fun t _ => flushed_eq V c t) cover

end Cert.KernelIdeal.Blocks0

end
-- ==== Proof.Blocks1.lean ====
/-
  Region 1 of the kernel program, an affine layer computed 1000 rows at a time.

  Grid point t loads rows 1000·t … 1000·t + 999 of the input array, the whole weight matrix and the whole bias
  row, and writes rows 1000·t … 1000·t + 999 of the output array.  Entry (p, q) of what it writes is
  (∑ k, x (1000·t + p, k) · W (k, q)) + b (0, q), which is entry (1000·t + p, q) of the affine layer of the whole
  arrays; the fifty row blocks tile the output array, so after the region the output array IS that layer of the
  arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks1

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile: the product of the two loaded blocks plus the bias row. -/
theorem pay_apply (v0 : Vec Ideal S1000x768 .f32) (v2 : Vec Ideal S768x1024 .f32) (v5 : Vec Ideal S1x1024 .f32) (p : Fin 1000) (q : Fin 1024) :
    k1_pay1 (F := Ideal) v0 v2 v5 (ix2 p q) = (∑ k : Fin 768, v0 (ix2 p k) * v2 (ix2 k q)) + v5 (ix2 (0 : Fin 1) q) := by
  unfold k1_pay1
  simp only [shapeCast_self]
  exact linTile_apply _ rfl rfl rfl rfl rfl rfl v0 v2 v5 _ _ p q

/-- The block index maps over the grid: the row block moves with the point, everything else stays at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the affine layer of the arrays the region found. -/
theorem flushed_eq (c : Dev nD) (t : Fin cfg1.N) :
    (dat1 V c).flushed 3 t = ((cfg1.win 3).blk t).view.read (Elt Ideal)
      (affineRow (M := 50000) (K := 768) (N := 1024) (V c main_arg1) (V c main_arg7) (V c main_v2)) := by
  show (cfg1.win 3).cut (grid1.coords t) ((dat1 V c).after 3 t) = _
  rw [after1_3]
  unfold out1_3
  rw [View.canon_unit_zero hz]
  simp only [View.ld_unit_zero (S := S1000x768) hz, View.ld_unit_zero (S := S768x1024) hz, View.ld_unit_zero (S := S1x1024) hz]
  obtain ⟨e0, e1, e2, e3, e4, e5, e6, e7⟩ := idx_facts t
  have ht : t.val < 50 := t.isLt
  funext j
  obtain ⟨p, q, rfl⟩ : ∃ (p : Fin 1000) (q : Fin 1024), j = ix2 p q := ⟨j 0, j 1, eq_ix2 j⟩
  have hp : p.val < 1000 := p.isLt
  have hq : q.val < 1024 := q.isLt
  show k1_pay1 (F := Ideal) (iblk1 V c 0 t) (iblk1 V c 1 t) (iblk1 V c 2 t) (ix2 p q)
    = affineRow (M := 50000) (K := 768) (N := 1024) (V c main_arg1) (V c main_arg7) (V c main_v2) (((cfg1.win 3).blk t).view.emb (ix2 p q))
  refine (pay_apply _ _ _ p q).trans ?_
  have hout : ((cfg1.win 3).blk t).view.emb (ix2 p q) = ix2 (⟨t.val * 1000 + p.val, by omega⟩ : Fin 50000) q := by
    funext a; apply Fin.ext
    match a with
    | ⟨0, _⟩ => show win1_3.index t (0 : Fin 2) * 1000 + 1 * p.val = t.val * 1000 + p.val; omega
    | ⟨1, _⟩ => show win1_3.index t (1 : Fin 2) * 1024 + 1 * q.val = q.val; omega
  rw [hout, affineRow_ix2]
  have h0 : ∀ k : Fin 768, iblk1 V c 0 t (ix2 p k) = V c main_arg1 (ix2 (⟨t.val * 1000 + p.val, by omega⟩ : Fin 50000) k) := fun k => by
    show V c main_arg1 (((cfg1.win 0).blk t).view.emb (ix2 p k)) = _
    refine congrArg _ ?_
    funext a; apply Fin.ext
    match a with
    | ⟨0, _⟩ => show win1_0.index t (0 : Fin 2) * 1000 + 1 * p.val = t.val * 1000 + p.val; omega
    | ⟨1, _⟩ => show win1_0.index t (1 : Fin 2) * 768 + 1 * k.val = k.val; omega
  have h1 : ∀ k : Fin 768, iblk1 V c 1 t (ix2 k q) = V c main_arg7 (ix2 k q) := fun k => by
    show V c main_arg7 (((cfg1.win 1).blk t).view.emb (ix2 k q)) = _
    refine congrArg _ ?_
    funext a; apply Fin.ext
    match a with
    | ⟨0, _⟩ => show win1_1.index t (0 : Fin 2) * 768 + 1 * k.val = k.val; omega
    | ⟨1, _⟩ => show win1_1.index t (1 : Fin 2) * 1024 + 1 * q.val = q.val; omega
  have h2 : iblk1 V c 2 t (ix2 (0 : Fin 1) q) = V c main_v2 (ix2 (0 : Fin 1) q) := by
    show V c main_v2 (((cfg1.win 2).blk t).view.emb (ix2 (0 : Fin 1) q)) = _
    refine congrArg _ ?_
    funext a; apply Fin.ext
    match a with
    | ⟨0, _⟩ => show win1_2.index t (0 : Fin 2) * 1 + 1 * 0 = 0; omega
    | ⟨1, _⟩ => show win1_2.index t (1 : Fin 2) * 1024 + 1 * q.val = q.val; omega
  rw [h2]
  refine congrArg (· + _) (Finset.sum_congr rfl fun k _ => ?_)
  rw [h0 k, h1 k]

/-- An index of the output array is in point t's block iff each coordinate is in the block's range on its axis. -/
theorem mem_blk (t : Fin cfg1.N) (i : S50000x1024.Idx) :
    i ∈ ((cfg1.win 3).blk t).view.set ↔ ∀ a : Fin 2, win1_3.index t a * S1000x1024.size a ≤ (i a).val ∧ (i a).val < win1_3.index t a * S1000x1024.size a + S1000x1024.size a := by
  show i ∈ ((View.whole main_v3).slice (win1_3.rect t)).set ↔ _
  rw [View.set_slice_whole, Rect.mem_set_unit]
  exact Iff.rfl

/-- Every index of the output array lies in the block of the point that owns its row. -/
theorem cover (i : S50000x1024.Idx) : ∃ t : Fin cfg1.N, (cfg1.win 3).flush t = true ∧ i ∈ ((cfg1.win 3).blk t).view.set := by
  have hi0 : (i 0).val < 50000 := (i 0).isLt
  have hi1 : (i 1).val < 1024 := (i 1).isLt
  refine ⟨⟨(i 0).val / 1000, by show (i 0).val / 1000 < 50; omega⟩, flush1_3 _, ?_⟩
  rw [mem_blk]
  obtain ⟨e0, e1, e2, e3, e4, e5, e6, e7⟩ := idx_facts ⟨(i 0).val / 1000, by show (i 0).val / 1000 < 50; omega⟩
  intro a
  match a with
  | ⟨0, _⟩ => show win1_3.index _ (0 : Fin 2) * 1000 ≤ (i 0).val ∧ (i 0).val < win1_3.index _ (0 : Fin 2) * 1000 + 1000; rw [e6]; show (i 0).val / 1000 * 1000 ≤ (i 0).val ∧ (i 0).val < (i 0).val / 1000 * 1000 + 1000; omega
  | ⟨1, _⟩ => show win1_3.index _ (1 : Fin 2) * 1024 ≤ (i 1).val ∧ (i 1).val < win1_3.index _ (1 : Fin 2) * 1024 + 1024; rw [e7]; omega

/-- After the region its output array is the affine layer of the arrays the region found. -/
theorem final (c : Dev nD) :
    (dat1 V c).arrAt 3 cfg1.N = affineRow (M := 50000) (K := 768) (N := 1024) (V c main_arg1) (V c main_arg7) (V c main_v2) :=
  (dat1 V c).arrAt_eq_of_cover 3 _ (fun t _ => flushed_eq V c t) cover

end Cert.KernelIdeal.Blocks1

end
-- ==== Proof.Blocks2.lean ====
/-
  Region 2 of the kernel program, a neighbourhood layer computed 1000 rows at a time.

  Grid point t loads rows 1000·t … 1000·t + 999 of the aggregated-neighbour array and of the node's own feature
  array, the two whole weight matrices and the whole bias row, and writes rows 1000·t … 1000·t + 999 of the output
  array.  Entry (p, q) of what it writes is the positive part of
  (∑ k, mean (1000·t + p, k) · Wl (k, q)) + (∑ k, dst (1000·t + p, k) · Wr (k, q)) + b (0, q), which is entry
  (1000·t + p, q) of the neighbourhood layer of the whole arrays; the fifty row blocks tile the output array, so after
  the region the output array IS that layer of the arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks2

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile. -/
theorem pay_apply (v0 : Vec Ideal S1000x1024 .f32) (v3 : Vec Ideal S1024x256 .f32) (v5 : Vec Ideal S1000x1024 .f32) (v8 : Vec Ideal S1024x256 .f32)
    (v13 : Vec Ideal S1x256 .f32) (p : Fin 1000) (q : Fin 256) :
    k2_pay1 (F := Ideal) v0 v3 v5 v8 v13 (ix2 p q)
      = max (((∑ k : Fin 1024, v0 (ix2 p k) * v3 (ix2 k q)) + (∑ k : Fin 1024, v5 (ix2 p k) * v8 (ix2 k q))) + v13 (ix2 (0 : Fin 1) q)) 0 := by
  unfold k2_pay1
  simp only [shapeCast_self]
  exact sageTile_apply _ _ rfl rfl rfl rfl rfl rfl rfl rfl rfl rfl rfl rfl v0 v3 v5 v8 v13 _ _ p q

/-- The block index maps over the grid: the two row blocks and the output's move with the point, the rest stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the neighbourhood layer of the arrays the region found. -/
theorem flushed_eq (c : Dev nD) (t : Fin cfg2.N) :
    (dat2 V c).flushed 5 t = ((cfg2.win 5).blk t).view.read (Elt Ideal)
      (sageRow (M := 50000) (K := 1024) (K' := 1024) (N := 256) (V c main_v26) (V c main_arg9) (V c main_v27) (V c main_v3) (V c main_arg11)) := by
  show (cfg2.win 5).cut (grid2.coords t) ((dat2 V c).after 5 t) = _
  rw [after2_5]
  unfold out2_5
  rw [View.canon_unit_zero hz]
  simp only [View.ld_unit_zero (S := S1000x1024) hz, View.ld_unit_zero (S := S1024x256) hz, View.ld_unit_zero (S := S1x256) hz]
  obtain ⟨e0, e1, e2, e3, e4, e5, e6, e7, e8, e9, e10, e11⟩ := idx_facts t
  have ht : t.val < 50 := t.isLt
  funext j
  obtain ⟨p, q, rfl⟩ : ∃ (p : Fin 1000) (q : Fin 256), j = ix2 p q := ⟨j 0, j 1, eq_ix2 j⟩
  have hp : p.val < 1000 := p.isLt
  have hq : q.val < 256 := q.isLt
  show k2_pay1 (F := Ideal) (iblk2 V c 0 t) (iblk2 V c 1 t) (iblk2 V c 3 t) (iblk2 V c 4 t) (iblk2 V c 2 t) (ix2 p q)
    = sageRow (M := 50000) (K := 1024) (K' := 1024) (N := 256) (V c main_v26) (V c main_arg9) (V c main_v27) (V c main_v3) (V c main_arg11) (((cfg2.win 5).blk t).view.emb (ix2 p q))
  refine (pay_apply _ _ _ _ _ p q).trans ?_
  have hout : ((cfg2.win 5).blk t).view.emb (ix2 p q) = ix2 (⟨t.val * 1000 + p.val, by omega⟩ : Fin 50000) q := by
    funext a; apply Fin.ext
    match a with
    | ⟨0, _⟩ => show win2_5.index t (0 : Fin 2) * 1000 + 1 * p.val = t.val * 1000 + p.val; omega
    | ⟨1, _⟩ => show win2_5.index t (1 : Fin 2) * 256 + 1 * q.val = q.val; omega
  rw [hout, sageRow_ix2]
  have h0 : ∀ k : Fin 1024, iblk2 V c 0 t (ix2 p k) = V c main_v26 (ix2 (⟨t.val * 1000 + p.val, by omega⟩ : Fin 50000) k) := fun k => by
    show V c main_v26 (((cfg2.win 0).blk t).view.emb (ix2 p k)) = _
    refine congrArg _ ?_
    funext a; apply Fin.ext
    match a with
    | ⟨0, _⟩ => show win2_0.index t (0 : Fin 2) * 1000 + 1 * p.val = t.val * 1000 + p.val; omega
    | ⟨1, _⟩ => show win2_0.index t (1 : Fin 2) * 1024 + 1 * k.val = k.val; omega
  have h1 : ∀ k : Fin 1024, iblk2 V c 1 t (ix2 k q) = V c main_arg9 (ix2 k q) := fun k => by
    show V c main_arg9 (((cfg2.win 1).blk t).view.emb (ix2 k q)) = _
    refine congrArg _ ?_
    funext a; apply Fin.ext
    match a with
    | ⟨0, _⟩ => show win2_1.index t (0 : Fin 2) * 1024 + 1 * k.val = k.val; omega
    | ⟨1, _⟩ => show win2_1.index t (1 : Fin 2) * 256 + 1 * q.val = q.val; omega
  have h2 : iblk2 V c 2 t (ix2 (0 : Fin 1) q) = V c main_v27 (ix2 (0 : Fin 1) q) := by
    show V c main_v27 (((cfg2.win 2).blk t).view.emb (ix2 (0 : Fin 1) q)) = _
    refine congrArg _ ?_
    funext a; apply Fin.ext
    match a with
    | ⟨0, _⟩ => show win2_2.index t (0 : Fin 2) * 1 + 1 * 0 = 0; omega
    | ⟨1, _⟩ => show win2_2.index t (1 : Fin 2) * 256 + 1 * q.val = q.val; omega
  have h3 : ∀ k : Fin 1024, iblk2 V c 3 t (ix2 p k) = V c main_v3 (ix2 (⟨t.val * 1000 + p.val, by omega⟩ : Fin 50000) k) := fun k => by
    show V c main_v3 (((cfg2.win 3).blk t).view.emb (ix2 p k)) = _
    refine congrArg _ ?_
    funext a; apply Fin.ext
    match a with
    | ⟨0, _⟩ => show win2_3.index t (0 : Fin 2) * 1000 + 1 * p.val = t.val * 1000 + p.val; omega
    | ⟨1, _⟩ => show win2_3.index t (1 : Fin 2) * 1024 + 1 * k.val = k.val; omega
  have h4 : ∀ k : Fin 1024, iblk2 V c 4 t (ix2 k q) = V c main_arg11 (ix2 k q) := fun k => by
    show V c main_arg11 (((cfg2.win 4).blk t).view.emb (ix2 k q)) = _
    refine congrArg _ ?_
    funext a; apply Fin.ext
    match a with
    | ⟨0, _⟩ => show win2_4.index t (0 : Fin 2) * 1024 + 1 * k.val = k.val; omega
    | ⟨1, _⟩ => show win2_4.index t (1 : Fin 2) * 256 + 1 * q.val = q.val; omega
  rw [h2]
  refine congrArg (fun z => max (z + _) 0) ?_
  refine congrArg₂ (· + ·) (Finset.sum_congr rfl fun k _ => ?_) (Finset.sum_congr rfl fun k _ => ?_)
  · rw [h0 k, h1 k]
  · rw [h3 k, h4 k]

/-- An index of the output array is in point t's block iff each coordinate is in the block's range on its axis. -/
theorem mem_blk (t : Fin cfg2.N) (i : S50000x256.Idx) :
    i ∈ ((cfg2.win 5).blk t).view.set ↔ ∀ a : Fin 2, win2_5.index t a * S1000x256.size a ≤ (i a).val ∧ (i a).val < win2_5.index t a * S1000x256.size a + S1000x256.size a := by
  show i ∈ ((View.whole main_v28).slice (win2_5.rect t)).set ↔ _
  rw [View.set_slice_whole, Rect.mem_set_unit]
  exact Iff.rfl

/-- Every index of the output array lies in the block of the point that owns its row. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  refine ⟨⟨(i 0).val / 1000, by show (i 0).val / 1000 < 50; omega⟩, flush2_5 _, ?_⟩
  rw [mem_blk]
  obtain ⟨e0, e1, e2, e3, e4, e5, e6, e7, e8, e9, e10, e11⟩ := idx_facts ⟨(i 0).val / 1000, by show (i 0).val / 1000 < 50; omega⟩
  intro a
  match a with
  | ⟨0, _⟩ => show win2_5.index _ (0 : Fin 2) * 1000 ≤ (i 0).val ∧ (i 0).val < win2_5.index _ (0 : Fin 2) * 1000 + 1000; rw [e10]; show (i 0).val / 1000 * 1000 ≤ (i 0).val ∧ (i 0).val < (i 0).val / 1000 * 1000 + 1000; omega
  | ⟨1, _⟩ => show win2_5.index _ (1 : Fin 2) * 256 ≤ (i 1).val ∧ (i 1).val < win2_5.index _ (1 : Fin 2) * 256 + 256; rw [e11]; omega

/-- After the region its output array is the neighbourhood layer of the arrays the region found. -/
theorem final (c : Dev nD) :
    (dat2 V c).arrAt 5 cfg2.N = sageRow (M := 50000) (K := 1024) (K' := 1024) (N := 256) (V c main_v26) (V c main_arg9) (V c main_v27) (V c main_v3) (V c main_arg11) :=
  (dat2 V c).arrAt_eq_of_cover 5 _ (fun t _ => flushed_eq V c t) cover

end Cert.KernelIdeal.Blocks2

end
-- ==== Proof.Blocks3.lean ====
/-
  Region 3 of the kernel program, a neighbourhood layer computed 1000 rows at a time.

  Grid point t loads rows 1000·t … 1000·t + 999 of the aggregated-neighbour array and of the node's own feature
  array, the two whole weight matrices and the whole bias row, and writes rows 1000·t … 1000·t + 999 of the output
  array.  Entry (p, q) of what it writes is the positive part of
  (∑ k, mean (1000·t + p, k) · Wl (k, q)) + (∑ k, dst (1000·t + p, k) · Wr (k, q)) + b (0, q), which is entry
  (1000·t + p, q) of the neighbourhood layer of the whole arrays; the fifty row blocks tile the output array, so after
  the region the output array IS that layer of the arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks3

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile. -/
theorem pay_apply (v0 : Vec Ideal S1000x1024 .f32) (v3 : Vec Ideal S1024x256 .f32) (v5 : Vec Ideal S1000x256 .f32) (v8 : Vec Ideal S256x256 .f32)
    (v13 : Vec Ideal S1x256 .f32) (p : Fin 1000) (q : Fin 256) :
    k3_pay1 (F := Ideal) v0 v3 v5 v8 v13 (ix2 p q)
      = max (((∑ k : Fin 1024, v0 (ix2 p k) * v3 (ix2 k q)) + (∑ k : Fin 256, v5 (ix2 p k) * v8 (ix2 k q))) + v13 (ix2 (0 : Fin 1) q)) 0 := by
  unfold k3_pay1
  simp only [shapeCast_self]
  exact sageTile_apply _ _ rfl rfl rfl rfl rfl rfl rfl rfl rfl rfl rfl rfl v0 v3 v5 v8 v13 _ _ p q

/-- The block index maps over the grid: the two row blocks and the output's move with the point, the rest stay at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the neighbourhood layer of the arrays the region found. -/
theorem flushed_eq (c : Dev nD) (t : Fin cfg3.N) :
    (dat3 V c).flushed 5 t = ((cfg3.win 5).blk t).view.read (Elt Ideal)
      (sageRow (M := 50000) (K := 1024) (K' := 256) (N := 256) (V c main_v51) (V c main_arg12) (V c main_v52) (V c main_v28) (V c main_arg14)) := by
  show (cfg3.win 5).cut (grid3.coords t) ((dat3 V c).after 5 t) = _
  rw [after3_5]
  unfold out3_5
  rw [View.canon_unit_zero hz]
  simp only [View.ld_unit_zero (S := S1000x1024) hz, View.ld_unit_zero (S := S1024x256) hz, View.ld_unit_zero (S := S1x256) hz, View.ld_unit_zero (S := S1000x256) hz, View.ld_unit_zero (S := S256x256) hz]
  obtain ⟨e0, e1, e2, e3, e4, e5, e6, e7, e8, e9, e10, e11⟩ := idx_facts t
  have ht : t.val < 50 := t.isLt
  funext j
  obtain ⟨p, q, rfl⟩ : ∃ (p : Fin 1000) (q : Fin 256), j = ix2 p q := ⟨j 0, j 1, eq_ix2 j⟩
  have hp : p.val < 1000 := p.isLt
  have hq : q.val < 256 := q.isLt
  show k3_pay1 (F := Ideal) (iblk3 V c 0 t) (iblk3 V c 1 t) (iblk3 V c 3 t) (iblk3 V c 4 t) (iblk3 V c 2 t) (ix2 p q)
    = sageRow (M := 50000) (K := 1024) (K' := 256) (N := 256) (V c main_v51) (V c main_arg12) (V c main_v52) (V c main_v28) (V c main_arg14) (((cfg3.win 5).blk t).view.emb (ix2 p q))
  refine (pay_apply _ _ _ _ _ p q).trans ?_
  have hout : ((cfg3.win 5).blk t).view.emb (ix2 p q) = ix2 (⟨t.val * 1000 + p.val, by omega⟩ : Fin 50000) q := by
    funext a; apply Fin.ext
    match a with
    | ⟨0, _⟩ => show win3_5.index t (0 : Fin 2) * 1000 + 1 * p.val = t.val * 1000 + p.val; omega
    | ⟨1, _⟩ => show win3_5.index t (1 : Fin 2) * 256 + 1 * q.val = q.val; omega
  rw [hout, sageRow_ix2]
  have h0 : ∀ k : Fin 1024, iblk3 V c 0 t (ix2 p k) = V c main_v51 (ix2 (⟨t.val * 1000 + p.val, by omega⟩ : Fin 50000) k) := fun k => by
    show V c main_v51 (((cfg3.win 0).blk t).view.emb (ix2 p k)) = _
    refine congrArg _ ?_
    funext a; apply Fin.ext
    match a with
    | ⟨0, _⟩ => show win3_0.index t (0 : Fin 2) * 1000 + 1 * p.val = t.val * 1000 + p.val; omega
    | ⟨1, _⟩ => show win3_0.index t (1 : Fin 2) * 1024 + 1 * k.val = k.val; omega
  have h1 : ∀ k : Fin 1024, iblk3 V c 1 t (ix2 k q) = V c main_arg12 (ix2 k q) := fun k => by
    show V c main_arg12 (((cfg3.win 1).blk t).view.emb (ix2 k q)) = _
    refine congrArg _ ?_
    funext a; apply Fin.ext
    match a with
    | ⟨0, _⟩ => show win3_1.index t (0 : Fin 2) * 1024 + 1 * k.val = k.val; omega
    | ⟨1, _⟩ => show win3_1.index t (1 : Fin 2) * 256 + 1 * q.val = q.val; omega
  have h2 : iblk3 V c 2 t (ix2 (0 : Fin 1) q) = V c main_v52 (ix2 (0 : Fin 1) q) := by
    show V c main_v52 (((cfg3.win 2).blk t).view.emb (ix2 (0 : Fin 1) q)) = _
    refine congrArg _ ?_
    funext a; apply Fin.ext
    match a with
    | ⟨0, _⟩ => show win3_2.index t (0 : Fin 2) * 1 + 1 * 0 = 0; omega
    | ⟨1, _⟩ => show win3_2.index t (1 : Fin 2) * 256 + 1 * q.val = q.val; omega
  have h3 : ∀ k : Fin 256, iblk3 V c 3 t (ix2 p k) = V c main_v28 (ix2 (⟨t.val * 1000 + p.val, by omega⟩ : Fin 50000) k) := fun k => by
    show V c main_v28 (((cfg3.win 3).blk t).view.emb (ix2 p k)) = _
    refine congrArg _ ?_
    funext a; apply Fin.ext
    match a with
    | ⟨0, _⟩ => show win3_3.index t (0 : Fin 2) * 1000 + 1 * p.val = t.val * 1000 + p.val; omega
    | ⟨1, _⟩ => show win3_3.index t (1 : Fin 2) * 256 + 1 * k.val = k.val; omega
  have h4 : ∀ k : Fin 256, iblk3 V c 4 t (ix2 k q) = V c main_arg14 (ix2 k q) := fun k => by
    show V c main_arg14 (((cfg3.win 4).blk t).view.emb (ix2 k q)) = _
    refine congrArg _ ?_
    funext a; apply Fin.ext
    match a with
    | ⟨0, _⟩ => show win3_4.index t (0 : Fin 2) * 256 + 1 * k.val = k.val; omega
    | ⟨1, _⟩ => show win3_4.index t (1 : Fin 2) * 256 + 1 * q.val = q.val; omega
  rw [h2]
  refine congrArg (fun z => max (z + _) 0) ?_
  refine congrArg₂ (· + ·) (Finset.sum_congr rfl fun k _ => ?_) (Finset.sum_congr rfl fun k _ => ?_)
  · rw [h0 k, h1 k]
  · rw [h3 k, h4 k]

/-- An index of the output array is in point t's block iff each coordinate is in the block's range on its axis. -/
theorem mem_blk (t : Fin cfg3.N) (i : S50000x256.Idx) :
    i ∈ ((cfg3.win 5).blk t).view.set ↔ ∀ a : Fin 2, win3_5.index t a * S1000x256.size a ≤ (i a).val ∧ (i a).val < win3_5.index t a * S1000x256.size a + S1000x256.size a := by
  show i ∈ ((View.whole main_v53).slice (win3_5.rect t)).set ↔ _
  rw [View.set_slice_whole, Rect.mem_set_unit]
  exact Iff.rfl

/-- Every index of the output array lies in the block of the point that owns its row. -/
theorem cover (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  refine ⟨⟨(i 0).val / 1000, by show (i 0).val / 1000 < 50; omega⟩, flush3_5 _, ?_⟩
  rw [mem_blk]
  obtain ⟨e0, e1, e2, e3, e4, e5, e6, e7, e8, e9, e10, e11⟩ := idx_facts ⟨(i 0).val / 1000, by show (i 0).val / 1000 < 50; omega⟩
  intro a
  match a with
  | ⟨0, _⟩ => show win3_5.index _ (0 : Fin 2) * 1000 ≤ (i 0).val ∧ (i 0).val < win3_5.index _ (0 : Fin 2) * 1000 + 1000; rw [e10]; show (i 0).val / 1000 * 1000 ≤ (i 0).val ∧ (i 0).val < (i 0).val / 1000 * 1000 + 1000; omega
  | ⟨1, _⟩ => show win3_5.index _ (1 : Fin 2) * 256 ≤ (i 1).val ∧ (i 1).val < win3_5.index _ (1 : Fin 2) * 256 + 256; rw [e11]; omega

/-- After the region its output array is the neighbourhood layer of the arrays the region found. -/
theorem final (c : Dev nD) :
    (dat3 V c).arrAt 5 cfg3.N = sageRow (M := 50000) (K := 1024) (K' := 256) (N := 256) (V c main_v51) (V c main_arg12) (V c main_v52) (V c main_v28) (V c main_arg14) :=
  (dat3 V c).arrAt_eq_of_cover 5 _ (fun t _ => flushed_eq V c t) cover

end Cert.KernelIdeal.Blocks3

end
-- ==== Proof.Blocks4.lean ====
/-
  Region 4 of the kernel program, a neighbourhood layer computed 1000 rows at a time.

  Grid point t loads rows 1000·t … 1000·t + 999 of the aggregated-neighbour array and of the node's own feature
  array, the two whole weight matrices and the whole bias row, and writes rows 1000·t … 1000·t + 999 of the output
  array.  Entry (p, q) of what it writes is the positive part of
  (∑ k, mean (1000·t + p, k) · Wl (k, q)) + (∑ k, dst (1000·t + p, k) · Wr (k, q)) + b (0, q), which is entry
  (1000·t + p, q) of the neighbourhood layer of the whole arrays; the fifty row blocks tile the output array, so after
  the region the output array IS that layer of the arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks4

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile. -/
theorem pay_apply (v0 : Vec Ideal S1000x256 .f32) (v3 : Vec Ideal S256x256 .f32) (v5 : Vec Ideal S1000x768 .f32) (v8 : Vec Ideal S768x256 .f32)
    (v13 : Vec Ideal S1x256 .f32) (p : Fin 1000) (q : Fin 256) :
    k4_pay1 (F := Ideal) v0 v3 v5 v8 v13 (ix2 p q)
      = max (((∑ k : Fin 256, v0 (ix2 p k) * v3 (ix2 k q)) + (∑ k : Fin 768, v5 (ix2 p k) * v8 (ix2 k q))) + v13 (ix2 (0 : Fin 1) q)) 0 := by
  unfold k4_pay1
  simp only [shapeCast_self]
  exact sageTile_apply _ _ rfl rfl rfl rfl rfl rfl rfl rfl rfl rfl rfl rfl v0 v3 v5 v8 v13 _ _ p q

/-- The block index maps over the grid: the two row blocks and the output's move with the point, the rest stay at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the neighbourhood layer of the arrays the region found. -/
theorem flushed_eq (c : Dev nD) (t : Fin cfg4.N) :
    (dat4 V c).flushed 5 t = ((cfg4.win 5).blk t).view.read (Elt Ideal)
      (sageRow (M := 50000) (K := 256) (K' := 768) (N := 256) (V c main_v76) (V c main_arg15) (V c main_v77) (V c main_arg1) (V c main_arg17)) := by
  show (cfg4.win 5).cut (grid4.coords t) ((dat4 V c).after 5 t) = _
  rw [after4_5]
  unfold out4_5
  rw [View.canon_unit_zero hz]
  simp only [View.ld_unit_zero (S := S1000x256) hz, View.ld_unit_zero (S := S256x256) hz, View.ld_unit_zero (S := S1x256) hz, View.ld_unit_zero (S := S1000x768) hz, View.ld_unit_zero (S := S768x256) hz]
  obtain ⟨e0, e1, e2, e3, e4, e5, e6, e7, e8, e9, e10, e11⟩ := idx_facts t
  have ht : t.val < 50 := t.isLt
  funext j
  obtain ⟨p, q, rfl⟩ : ∃ (p : Fin 1000) (q : Fin 256), j = ix2 p q := ⟨j 0, j 1, eq_ix2 j⟩
  have hp : p.val < 1000 := p.isLt
  have hq : q.val < 256 := q.isLt
  show k4_pay1 (F := Ideal) (iblk4 V c 0 t) (iblk4 V c 1 t) (iblk4 V c 3 t) (iblk4 V c 4 t) (iblk4 V c 2 t) (ix2 p q)
    = sageRow (M := 50000) (K := 256) (K' := 768) (N := 256) (V c main_v76) (V c main_arg15) (V c main_v77) (V c main_arg1) (V c main_arg17) (((cfg4.win 5).blk t).view.emb (ix2 p q))
  refine (pay_apply _ _ _ _ _ p q).trans ?_
  have hout : ((cfg4.win 5).blk t).view.emb (ix2 p q) = ix2 (⟨t.val * 1000 + p.val, by omega⟩ : Fin 50000) q := by
    funext a; apply Fin.ext
    match a with
    | ⟨0, _⟩ => show win4_5.index t (0 : Fin 2) * 1000 + 1 * p.val = t.val * 1000 + p.val; omega
    | ⟨1, _⟩ => show win4_5.index t (1 : Fin 2) * 256 + 1 * q.val = q.val; omega
  rw [hout, sageRow_ix2]
  have h0 : ∀ k : Fin 256, iblk4 V c 0 t (ix2 p k) = V c main_v76 (ix2 (⟨t.val * 1000 + p.val, by omega⟩ : Fin 50000) k) := fun k => by
    show V c main_v76 (((cfg4.win 0).blk t).view.emb (ix2 p k)) = _
    refine congrArg _ ?_
    funext a; apply Fin.ext
    match a with
    | ⟨0, _⟩ => show win4_0.index t (0 : Fin 2) * 1000 + 1 * p.val = t.val * 1000 + p.val; omega
    | ⟨1, _⟩ => show win4_0.index t (1 : Fin 2) * 256 + 1 * k.val = k.val; omega
  have h1 : ∀ k : Fin 256, iblk4 V c 1 t (ix2 k q) = V c main_arg15 (ix2 k q) := fun k => by
    show V c main_arg15 (((cfg4.win 1).blk t).view.emb (ix2 k q)) = _
    refine congrArg _ ?_
    funext a; apply Fin.ext
    match a with
    | ⟨0, _⟩ => show win4_1.index t (0 : Fin 2) * 256 + 1 * k.val = k.val; omega
    | ⟨1, _⟩ => show win4_1.index t (1 : Fin 2) * 256 + 1 * q.val = q.val; omega
  have h2 : iblk4 V c 2 t (ix2 (0 : Fin 1) q) = V c main_v77 (ix2 (0 : Fin 1) q) := by
    show V c main_v77 (((cfg4.win 2).blk t).view.emb (ix2 (0 : Fin 1) q)) = _
    refine congrArg _ ?_
    funext a; apply Fin.ext
    match a with
    | ⟨0, _⟩ => show win4_2.index t (0 : Fin 2) * 1 + 1 * 0 = 0; omega
    | ⟨1, _⟩ => show win4_2.index t (1 : Fin 2) * 256 + 1 * q.val = q.val; omega
  have h3 : ∀ k : Fin 768, iblk4 V c 3 t (ix2 p k) = V c main_arg1 (ix2 (⟨t.val * 1000 + p.val, by omega⟩ : Fin 50000) k) := fun k => by
    show V c main_arg1 (((cfg4.win 3).blk t).view.emb (ix2 p k)) = _
    refine congrArg _ ?_
    funext a; apply Fin.ext
    match a with
    | ⟨0, _⟩ => show win4_3.index t (0 : Fin 2) * 1000 + 1 * p.val = t.val * 1000 + p.val; omega
    | ⟨1, _⟩ => show win4_3.index t (1 : Fin 2) * 768 + 1 * k.val = k.val; omega
  have h4 : ∀ k : Fin 768, iblk4 V c 4 t (ix2 k q) = V c main_arg17 (ix2 k q) := fun k => by
    show V c main_arg17 (((cfg4.win 4).blk t).view.emb (ix2 k q)) = _
    refine congrArg _ ?_
    funext a; apply Fin.ext
    match a with
    | ⟨0, _⟩ => show win4_4.index t (0 : Fin 2) * 768 + 1 * k.val = k.val; omega
    | ⟨1, _⟩ => show win4_4.index t (1 : Fin 2) * 256 + 1 * q.val = q.val; omega
  rw [h2]
  refine congrArg (fun z => max (z + _) 0) ?_
  refine congrArg₂ (· + ·) (Finset.sum_congr rfl fun k _ => ?_) (Finset.sum_congr rfl fun k _ => ?_)
  · rw [h0 k, h1 k]
  · rw [h3 k, h4 k]

/-- An index of the output array is in point t's block iff each coordinate is in the block's range on its axis. -/
theorem mem_blk (t : Fin cfg4.N) (i : S50000x256.Idx) :
    i ∈ ((cfg4.win 5).blk t).view.set ↔ ∀ a : Fin 2, win4_5.index t a * S1000x256.size a ≤ (i a).val ∧ (i a).val < win4_5.index t a * S1000x256.size a + S1000x256.size a := by
  show i ∈ ((View.whole main_v78).slice (win4_5.rect t)).set ↔ _
  rw [View.set_slice_whole, Rect.mem_set_unit]
  exact Iff.rfl

/-- Every index of the output array lies in the block of the point that owns its row. -/
theorem cover (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  refine ⟨⟨(i 0).val / 1000, by show (i 0).val / 1000 < 50; omega⟩, flush4_5 _, ?_⟩
  rw [mem_blk]
  obtain ⟨e0, e1, e2, e3, e4, e5, e6, e7, e8, e9, e10, e11⟩ := idx_facts ⟨(i 0).val / 1000, by show (i 0).val / 1000 < 50; omega⟩
  intro a
  match a with
  | ⟨0, _⟩ => show win4_5.index _ (0 : Fin 2) * 1000 ≤ (i 0).val ∧ (i 0).val < win4_5.index _ (0 : Fin 2) * 1000 + 1000; rw [e10]; show (i 0).val / 1000 * 1000 ≤ (i 0).val ∧ (i 0).val < (i 0).val / 1000 * 1000 + 1000; omega
  | ⟨1, _⟩ => show win4_5.index _ (1 : Fin 2) * 256 ≤ (i 1).val ∧ (i 1).val < win4_5.index _ (1 : Fin 2) * 256 + 256; rw [e11]; omega

/-- After the region its output array is the neighbourhood layer of the arrays the region found. -/
theorem final (c : Dev nD) :
    (dat4 V c).arrAt 5 cfg4.N = sageRow (M := 50000) (K := 256) (K' := 768) (N := 256) (V c main_v76) (V c main_arg15) (V c main_v77) (V c main_arg1) (V c main_arg17) :=
  (dat4 V c).arrAt_eq_of_cover 5 _ (fun t _ => flushed_eq V c t) cover

end Cert.KernelIdeal.Blocks4

end
-- ==== Proof.Blocks5.lean ====
/-
  Region 5 of the kernel program, an affine layer computed 1000 rows at a time.

  Grid point t loads rows 1000·t … 1000·t + 999 of the input array, the whole weight matrix and the whole bias
  row, and writes rows 1000·t … 1000·t + 999 of the output array.  Entry (p, q) of what it writes is
  (∑ k, x (1000·t + p, k) · W (k, q)) + b (0, q), which is entry (1000·t + p, q) of the affine layer of the whole
  arrays; the fifty row blocks tile the output array, so after the region the output array IS that layer of the
  arrays the region found.
-/
import proofs.«171405_j59785944760472_1_alg».proof.Proof.Gen.KernelIdeal.Frame
import proofs.«171405_j59785944760472_1_alg».proof.Proof.LibDenseLayers
import Idealize.ShloMosaic.Lib.Pipeline.Value

set_option maxRecDepth 16384

noncomputable section

open scoped BigOperators

namespace Cert.KernelIdeal.Blocks5

open Cert.KernelIdeal Cert.KernelIdeal.Gen Cert.LibDenseLayers
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (p, q) of the tile: the product of the two loaded blocks plus the bias row. -/
theorem pay_apply (v0 : Vec Ideal S1000x256 .f32) (v2 : Vec Ideal S256x128 .f32) (v5 : Vec Ideal S1x128 .f32) (p : Fin 1000) (q : Fin 128) :
    k5_pay1 (F := Ideal) v0 v2 v5 (ix2 p q) = (∑ k : Fin 256, v0 (ix2 p k) * v2 (ix2 k q)) + v5 (ix2 (0 : Fin 1) q) := by
  unfold k5_pay1
  simp only [shapeCast_self]
  exact linTile_apply _ rfl rfl rfl rfl rfl rfl v0 v2 v5 _ _ p q

/-- The block index maps over the grid: the row block moves with the point, everything else stays at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the affine layer of the arrays the region found. -/
theorem flushed_eq (c : Dev nD) (t : Fin cfg5.N) :
    (dat5 V c).flushed 3 t = ((cfg5.win 3).blk t).view.read (Elt Ideal)
      (affineRow (M := 50000) (K := 256) (N := 128) (V c main_v78) (V c main_arg18) (V c main_v79)) := by
  show (cfg5.win 3).cut (grid5.coords t) ((dat5 V c).after 3 t) = _
  rw [after5_3]
  unfold out5_3
  rw [View.canon_unit_zero hz]
  simp only [View.ld_unit_zero (S := S1000x256) hz, View.ld_unit_zero (S := S256x128) hz, View.ld_unit_zero (S := S1x128) hz]
  obtain ⟨e0, e1, e2, e3, e4, e5, e6, e7⟩ := idx_facts t
  have ht : t.val < 50 := t.isLt
  funext j
  obtain ⟨p, q, rfl⟩ : ∃ (p : Fin 1000) (q : Fin 128), j = ix2 p q := ⟨j 0, j 1, eq_ix2 j⟩
  have hp : p.val < 1000 := p.isLt
  have hq : q.val < 128 := q.isLt
  show k5_pay1 (F := Ideal) (iblk5 V c 0 t) (iblk5 V c 1 t) (iblk5 V c 2 t) (ix2 p q)
    = affineRow (M := 50000) (K := 256) (N := 128) (V c main_v78) (V c main_arg18) (V c main_v79) (((cfg5.win 3).blk t).view.emb (ix2 p q))
  refine (pay_apply _ _ _ p q).trans ?_
  have hout : ((cfg5.win 3).blk t).view.emb (ix2 p q) = ix2 (⟨t.val * 1000 + p.val, by omega⟩ : Fin 50000) q := by
    funext a; apply Fin.ext
    match a with
    | ⟨0, _⟩ => show win5_3.index t (0 : Fin 2) * 1000 + 1 * p.val = t.val * 1000 + p.val; omega
    | ⟨1, _⟩ => show win5_3.index t (1 : Fin 2) * 128 + 1 * q.val = q.val; omega
  rw [hout, affineRow_ix2]
  have h0 : ∀ k : Fin 256, iblk5 V c 0 t (ix2 p k) = V c main_v78 (ix2 (⟨t.val * 1000 + p.val, by omega⟩ : Fin 50000) k) := fun k => by
    show V c main_v78 (((cfg5.win 0).blk t).view.emb (ix2 p k)) = _
    refine congrArg _ ?_
    funext a; apply Fin.ext
    match a with
    | ⟨0, _⟩ => show win5_0.index t (0 : Fin 2) * 1000 + 1 * p.val = t.val * 1000 + p.val; omega
    | ⟨1, _⟩ => show win5_0.index t (1 : Fin 2) * 256 + 1 * k.val = k.val; omega
  have h1 : ∀ k : Fin 256, iblk5 V c 1 t (ix2 k q) = V c main_arg18 (ix2 k q) := fun k => by
    show V c main_arg18 (((cfg5.win 1).blk t).view.emb (ix2 k q)) = _
    refine congrArg _ ?_
    funext a; apply Fin.ext
    match a with
    | ⟨0, _⟩ => show win5_1.index t (0 : Fin 2) * 256 + 1 * k.val = k.val; omega
    | ⟨1, _⟩ => show win5_1.index t (1 : Fin 2) * 128 + 1 * q.val = q.val; omega
  have h2 : iblk5 V c 2 t (ix2 (0 : Fin 1) q) = V c main_v79 (ix2 (0 : Fin 1) q) := by
    show V c main_v79 (((cfg5.win 2).blk t).view.emb (ix2 (0 : Fin 1) q)) = _
    refine congrArg _ ?_
    funext a; apply Fin.ext
    match a with
    | ⟨0, _⟩ => show win5_2.index t (0 : Fin 2) * 1 + 1 * 0 = 0; omega
    | ⟨1, _⟩ => show win5_2.index t (1 : Fin 2) * 128 + 1 * q.val = q.val; omega
  rw [h2]
  refine congrArg (· + _) (Finset.sum_congr rfl fun k _ => ?_)
  rw [h0 k, h1 k]

/-- An index of the output array is in point t's block iff each coordinate is in the block's range on its axis. -/
theorem mem_blk (t : Fin cfg5.N) (i : S50000x128.Idx) :
    i ∈ ((cfg5.win 3).blk t).view.set ↔ ∀ a : Fin 2, win5_3.index t a * S1000x128.size a ≤ (i a).val ∧ (i a).val < win5_3.index t a * S1000x128.size a + S1000x128.size a := by
  show i ∈ ((View.whole main_v80).slice (win5_3.rect t)).set ↔ _
  rw [View.set_slice_whole, Rect.mem_set_unit]
  exact Iff.rfl

/-- Every index of the output array lies in the block of the point that owns its row. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  refine ⟨⟨(i 0).val / 1000, by show (i 0).val / 1000 < 50; omega⟩, flush5_3 _, ?_⟩
  rw [mem_blk]
  obtain ⟨e0, e1, e2, e3, e4, e5, e6, e7⟩ := idx_facts ⟨(i 0).val / 1000, by show (i 0).val / 1000 < 50; omega⟩
  intro a
  match a with
  | ⟨0, _⟩ => show win5_3.index _ (0 : Fin 2) * 1000 ≤ (i 0).val ∧ (i 0).val < win5_3.index _ (0 : Fin 2) * 1000 + 1000; rw [e6]; show (i 0).val / 1000 * 1000 ≤ (i 0).val ∧ (i 0).val < (i 0).val / 1000 * 1000 + 1000; omega
  | ⟨1, _⟩ => show win5_3.index _ (1 : Fin 2) * 128 ≤ (i 1).val ∧ (i 1).val < win5_3.index _ (1 : Fin 2) * 128 + 128; rw [e7]; omega

/-- After the region its output array is the affine layer of the arrays the region found. -/
theorem final (c : Dev nD) :
    (dat5 V c).arrAt 3 cfg5.N = affineRow (M := 50000) (K := 256) (N := 128) (V c main_v78) (V c main_arg18) (V c main_v79) :=
  (dat5 V c).arrAt_eq_of_cover 3 _ (fun t _ => flushed_eq V c t) cover

end Cert.KernelIdeal.Blocks5

end
-- ==== Proof.Chain.lean ====
/-
  The kernel program's result as a composition of its layers.

  The program alternates host stretches and kernel regions.  Region 0 and region 1 are the two input affine layers;
  the host then aggregates, for each community node, the mean of the article rows on its incoming edges, and regions
  2, 3 and 4 are the three neighbourhood layers (the third aggregates the second's output); region 5 is the output
  affine layer.  Reading the buffer contents boundary by boundary — a host stretch applies its operations, a region
  leaves its output array at the layer function of the arrays it found and every other buffer as it was — the result
  buffer ends at the composition below of the launch arguments.
-/
import proofs.«171405_j59785944760472_1_alg».proof.Proof.Blocks0
import proofs.«171405_j59785944760472_1_alg».proof.Proof.Blocks1
import proofs.«171405_j59785944760472_1_alg».proof.Proof.Blocks2
import proofs.«171405_j59785944760472_1_alg».proof.Proof.Blocks3
import proofs.«171405_j59785944760472_1_alg».proof.Proof.Blocks4
import proofs.«171405_j59785944760472_1_alg».proof.Proof.Blocks5
import Idealize.ShloMosaic.Lib.StableHlo.Run

set_option maxRecDepth 16384

noncomputable section

namespace Cert.KernelIdeal.Net

open Cert.KernelIdeal Cert.KernelIdeal.Gen Cert.LibDenseLayers
open Idealize.ShloMosaic Idealize.ShloMosaic.TcCoe Idealize.SL.Sem Idealize.ShloMosaic.StableHlo
open Idealize.ShloMosaic.Pipeline (Dat Cfg Window)

/-- The contents of a buffer of the given shape and element type at the exact instance. -/
abbrev BT (s : Shape) (e : EltTy) : Type := (⟨s, e⟩ : BufTy).Contents (Elt Ideal)

/-- Mean aggregation over 200000 edges of 1024-wide rows: gather the source rows (negative indices wrapped, out-of-range
    ones clamped by the gather), add them into the destination rows, count the edges per destination, and divide by
    the count or by one where there is none. -/
def mean200 (X : FVec Ideal S50000x1024 .f32) (E : BT S2x200000 .i32) : FVec Ideal S50000x1024 .f32 :=
  Host.divf (F := Ideal) (Host.scatterAdd scatter_S50000x1024_S200000x1_S200000x1024_1_0_0_1 (broadcastInDim S50000x1024 ![] bcast_S_S50000x1024 (constant S_ .f32 0x00000000#32)) (broadcastInDim S200000x1 ![0] bcast_S200000_S200000x1_0 (shapeCast _ (extractStridedSlice S1x200000 ![1, 0] E slices_S2x200000_S1x200000_1_0) shapeCasts_S1x200000_S200000)) (Host.gather gather_S50000x1024_S200000x1_S200000x1024_1_0_n_n_0_1_11024 X (broadcastInDim S200000x1 ![0] bcast_S200000_S200000x1_0 (select (cmpi .slt (shapeCast _ (extractStridedSlice S1x200000 ![0, 0] E slices_S2x200000_S1x200000_0_0) shapeCasts_S1x200000_S200000) (broadcastInDim S200000 ![] bcast_S_S200000 (constantI S_ 32 0#32))) (addi (shapeCast _ (extractStridedSlice S1x200000 ![0, 0] E slices_S2x200000_S1x200000_0_0) shapeCasts_S1x200000_S200000) (broadcastInDim S200000 ![] bcast_S_S200000 (constantI S_ 32 50000#32))) (shapeCast _ (extractStridedSlice S1x200000 ![0, 0] E slices_S2x200000_S1x200000_0_0) shapeCasts_S1x200000_S200000))))) (broadcastInDim S50000x1024 ![0, 1] bcast_S50000x1_S50000x1024_0_1 (broadcastInDim S50000x1 ![0] bcast_S50000_S50000x1_0 (maximumf (Host.scatterAdd scatter_S50000_S200000x1_S200000_n_0_0_1 (broadcastInDim S50000 ![] bcast_S_S50000 (constant S_ .f32 0x00000000#32)) (broadcastInDim S200000x1 ![0] bcast_S200000_S200000x1_0 (shapeCast _ (extractStridedSlice S1x200000 ![1, 0] E slices_S2x200000_S1x200000_1_0) shapeCasts_S1x200000_S200000)) (broadcastInDim S200000 ![] bcast_S_S200000 (constant S_ .f32 0x3F800000#32))) (broadcastInDim S50000 ![] bcast_S_S50000 (constant S_ .f32 0x3F800000#32)))))

/-- The same over 500000 edges of 256-wide rows. -/
def mean500 (X : FVec Ideal S50000x256 .f32) (E : BT S2x500000 .i32) : FVec Ideal S50000x256 .f32 :=
  Host.divf (F := Ideal) (Host.scatterAdd scatter_S50000x256_S500000x1_S500000x256_1_0_0_1 (broadcastInDim S50000x256 ![] bcast_S_S50000x256 (constant S_ .f32 0x00000000#32)) (broadcastInDim S500000x1 ![0] bcast_S500000_S500000x1_0 (shapeCast _ (extractStridedSlice S1x500000 ![1, 0] E slices_S2x500000_S1x500000_1_0) shapeCasts_S1x500000_S500000)) (Host.gather gather_S50000x256_S500000x1_S500000x256_1_0_n_n_0_1_1256 X (broadcastInDim S500000x1 ![0] bcast_S500000_S500000x1_0 (select (cmpi .slt (shapeCast _ (extractStridedSlice S1x500000 ![0, 0] E slices_S2x500000_S1x500000_0_0) shapeCasts_S1x500000_S500000) (broadcastInDim S500000 ![] bcast_S_S500000 (constantI S_ 32 0#32))) (addi (shapeCast _ (extractStridedSlice S1x500000 ![0, 0] E slices_S2x500000_S1x500000_0_0) shapeCasts_S1x500000_S500000) (broadcastInDim S500000 ![] bcast_S_S500000 (constantI S_ 32 50000#32))) (shapeCast _ (extractStridedSlice S1x500000 ![0, 0] E slices_S2x500000_S1x500000_0_0) shapeCasts_S1x500000_S500000))))) (broadcastInDim S50000x256 ![0, 1] bcast_S50000x1_S50000x256_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 (shapeCast _ (extractStridedSlice S1x500000 ![1, 0] E slices_S2x500000_S1x500000_1_0) shapeCasts_S1x500000_S500000)) (broadcastInDim S500000 ![] bcast_S_S500000 (constant S_ .f32 0x3F800000#32))) (broadcastInDim S50000 ![] bcast_S_S50000 (constant S_ .f32 0x3F800000#32)))))

/-! ## What each host stretch computes, from any contents -/

theorem read0 (W : Valuation τ sig (Elt Ideal)) :
    StableHlo.after (hostOps0 (F := Ideal)) W (Proc.devRef .tc main_v0) = shapeCast S1x1024 (W (Proc.devRef .tc main_arg6)) shapeCasts_S1024_S1x1024 := by
  after_results; rfl

theorem read1 (W : Valuation τ sig (Elt Ideal)) :
    StableHlo.after (hostOps1 (F := Ideal)) W (Proc.devRef .tc main_v2) = shapeCast S1x1024 (W (Proc.devRef .tc main_arg8)) shapeCasts_S1024_S1x1024 := by
  after_results; rfl

theorem read2_mean (W : Valuation τ sig (Elt Ideal)) :
    StableHlo.after (hostOps2 (F := Ideal)) W (Proc.devRef .tc main_v26) = mean200 (W (Proc.devRef .tc main_v1)) (W (Proc.devRef .tc main_arg2)) := by
  after_results_simp <;> rfl

theorem read2_bias (W : Valuation τ sig (Elt Ideal)) :
    StableHlo.after (hostOps2 (F := Ideal)) W (Proc.devRef .tc main_v27) = shapeCast S1x256 (W (Proc.devRef .tc main_arg10)) shapeCasts_S256_S1x256 := by
  after_results_simp <;> rfl

theorem read3_mean (W : Valuation τ sig (Elt Ideal)) :
    StableHlo.after (hostOps3 (F := Ideal)) W (Proc.devRef .tc main_v51) = mean200 (W (Proc.devRef .tc main_v1)) (W (Proc.devRef .tc main_arg3)) := by
  after_results_simp <;> rfl

theorem read3_bias (W : Valuation τ sig (Elt Ideal)) :
    StableHlo.after (hostOps3 (F := Ideal)) W (Proc.devRef .tc main_v52) = shapeCast S1x256 (W (Proc.devRef .tc main_arg13)) shapeCasts_S256_S1x256 := by
  after_results_simp <;> rfl

theorem read4_mean (W : Valuation τ sig (Elt Ideal)) :
    StableHlo.after (hostOps4 (F := Ideal)) W (Proc.devRef .tc main_v76) = mean500 (W (Proc.devRef .tc main_v53)) (W (Proc.devRef .tc main_arg4)) := by
  after_results_simp <;> rfl

theorem read4_bias (W : Valuation τ sig (Elt Ideal)) :
    StableHlo.after (hostOps4 (F := Ideal)) W (Proc.devRef .tc main_v77) = shapeCast S1x256 (W (Proc.devRef .tc main_arg16)) shapeCasts_S256_S1x256 := by
  after_results_simp <;> rfl

theorem read5 (W : Valuation τ sig (Elt Ideal)) :
    StableHlo.after (hostOps5 (F := Ideal)) W (Proc.devRef .tc main_v79) = shapeCast S1x128 (W (Proc.devRef .tc main_arg19)) shapeCasts_S128_S1x128 := by
  after_results; rfl

/-! ## Buffers that a segment leaves alone -/

/-- A buffer no operation of the stretch writes keeps its contents. -/
macro "keep_host" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

theorem k1_arg0 (c : Dev nD) : W1 m ρ c (Proc.devRef .tc main_arg0) = m ((c : Thread nD τ).loc main_arg0) :=
  (by keep_host hostOps0 : W1 m ρ c (Proc.devRef .tc main_arg0) = W0 m ρ c (Proc.devRef .tc main_arg0)).trans
    ((rfl : W0 m ρ c (Proc.devRef .tc main_arg0) = m ((c : Thread nD τ).loc main_arg0)))

theorem k1_arg5 (c : Dev nD) : W1 m ρ c (Proc.devRef .tc main_arg5) = m ((c : Thread nD τ).loc main_arg5) :=
  (by keep_host hostOps0 : W1 m ρ c (Proc.devRef .tc main_arg5) = W0 m ρ c (Proc.devRef .tc main_arg5)).trans
    ((rfl : W0 m ρ c (Proc.devRef .tc main_arg5) = m ((c : Thread nD τ).loc main_arg5)))

theorem k3_arg1 (c : Dev nD) : W3 m ρ c (Proc.devRef .tc main_arg1) = m ((c : Thread nD τ).loc main_arg1) :=
  (by keep_host hostOps1 : W3 m ρ c (Proc.devRef .tc main_arg1) = W2 m ρ c (Proc.devRef .tc main_arg1)).trans
    ((W2_of_ne m ρ c main_arg1 (by decide)).trans
    ((by keep_host hostOps0 : W1 m ρ c (Proc.devRef .tc main_arg1) = W0 m ρ c (Proc.devRef .tc main_arg1)).trans
    ((rfl : W0 m ρ c (Proc.devRef .tc main_arg1) = m ((c : Thread nD τ).loc main_arg1)))))

theorem k3_arg7 (c : Dev nD) : W3 m ρ c (Proc.devRef .tc main_arg7) = m ((c : Thread nD τ).loc main_arg7) :=
  (by keep_host hostOps1 : W3 m ρ c (Proc.devRef .tc main_arg7) = W2 m ρ c (Proc.devRef .tc main_arg7)).trans
    ((W2_of_ne m ρ c main_arg7 (by decide)).trans
    ((by keep_host hostOps0 : W1 m ρ c (Proc.devRef .tc main_arg7) = W0 m ρ c (Proc.devRef .tc main_arg7)).trans
    ((rfl : W0 m ρ c (Proc.devRef .tc main_arg7) = m ((c : Thread nD τ).loc main_arg7)))))

theorem k2_arg8 (c : Dev nD) : W2 m ρ c (Proc.devRef .tc main_arg8) = m ((c : Thread nD τ).loc main_arg8) :=
  (W2_of_ne m ρ c main_arg8 (by decide)).trans
    ((by keep_host hostOps0 : W1 m ρ c (Proc.devRef .tc main_arg8) = W0 m ρ c (Proc.devRef .tc main_arg8)).trans
    ((rfl : W0 m ρ c (Proc.devRef .tc main_arg8) = m ((c : Thread nD τ).loc main_arg8))))

theorem k4_v1 (c : Dev nD) : W4 m ρ c (Proc.devRef .tc main_v1) = W2 m ρ c (Proc.devRef .tc main_v1) :=
  (W4_of_ne m ρ c main_v1 (by decide)).trans
    ((by keep_host hostOps1 : W3 m ρ c (Proc.devRef .tc main_v1) = W2 m ρ c (Proc.devRef .tc main_v1)))

theorem k4_arg2 (c : Dev nD) : W4 m ρ c (Proc.devRef .tc main_arg2) = m ((c : Thread nD τ).loc main_arg2) :=
  (W4_of_ne m ρ c main_arg2 (by decide)).trans
    ((by keep_host hostOps1 : W3 m ρ c (Proc.devRef .tc main_arg2) = W2 m ρ c (Proc.devRef .tc main_arg2)).trans
    ((W2_of_ne m ρ c main_arg2 (by decide)).trans
    ((by keep_host hostOps0 : W1 m ρ c (Proc.devRef .tc main_arg2) = W0 m ρ c (Proc.devRef .tc main_arg2)).trans
    ((rfl : W0 m ρ c (Proc.devRef .tc main_arg2) = m ((c : Thread nD τ).loc main_arg2))))))

theorem k5_arg9 (c : Dev nD) : W5 m ρ c (Proc.devRef .tc main_arg9) = m ((c : Thread nD τ).loc main_arg9) :=
  (by keep_host hostOps2 : W5 m ρ c (Proc.devRef .tc main_arg9) = W4 m ρ c (Proc.devRef .tc main_arg9)).trans
    ((W4_of_ne m ρ c main_arg9 (by decide)).trans
    ((by keep_host hostOps1 : W3 m ρ c (Proc.devRef .tc main_arg9) = W2 m ρ c (Proc.devRef .tc main_arg9)).trans
    ((W2_of_ne m ρ c main_arg9 (by decide)).trans
    ((by keep_host hostOps0 : W1 m ρ c (Proc.devRef .tc main_arg9) = W0 m ρ c (Proc.devRef .tc main_arg9)).trans
    ((rfl : W0 m ρ c (Proc.devRef .tc main_arg9) = m ((c : Thread nD τ).loc main_arg9)))))))

theorem k4_arg10 (c : Dev nD) : W4 m ρ c (Proc.devRef .tc main_arg10) = m ((c : Thread nD τ).loc main_arg10) :=
  (W4_of_ne m ρ c main_arg10 (by decide)).trans
    ((by keep_host hostOps1 : W3 m ρ c (Proc.devRef .tc main_arg10) = W2 m ρ c (Proc.devRef .tc main_arg10)).trans
    ((W2_of_ne m ρ c main_arg10 (by decide)).trans
    ((by keep_host hostOps0 : W1 m ρ c (Proc.devRef .tc main_arg10) = W0 m ρ c (Proc.devRef .tc main_arg10)).trans
    ((rfl : W0 m ρ c (Proc.devRef .tc main_arg10) = m ((c : Thread nD τ).loc main_arg10))))))

theorem k5_v3 (c : Dev nD) : W5 m ρ c (Proc.devRef .tc main_v3) = W4 m ρ c (Proc.devRef .tc main_v3) :=
  (by keep_host hostOps2 : W5 m ρ c (Proc.devRef .tc main_v3) = W4 m ρ c (Proc.devRef .tc main_v3))

theorem k5_arg11 (c : Dev nD) : W5 m ρ c (Proc.devRef .tc main_arg11) = m ((c : Thread nD τ).loc main_arg11) :=
  (by keep_host hostOps2 : W5 m ρ c (Proc.devRef .tc main_arg11) = W4 m ρ c (Proc.devRef .tc main_arg11)).trans
    ((W4_of_ne m ρ c main_arg11 (by decide)).trans
    ((by keep_host hostOps1 : W3 m ρ c (Proc.devRef .tc main_arg11) = W2 m ρ c (Proc.devRef .tc main_arg11)).trans
    ((W2_of_ne m ρ c main_arg11 (by decide)).trans
    ((by keep_host hostOps0 : W1 m ρ c (Proc.devRef .tc main_arg11) = W0 m ρ c (Proc.devRef .tc main_arg11)).trans
    ((rfl : W0 m ρ c (Proc.devRef .tc main_arg11) = m ((c : Thread nD τ).loc main_arg11)))))))

theorem k6_v1 (c : Dev nD) : W6 m ρ c (Proc.devRef .tc main_v1) = W2 m ρ c (Proc.devRef .tc main_v1) :=
  (W6_of_ne m ρ c main_v1 (by decide)).trans
    ((by keep_host hostOps2 : W5 m ρ c (Proc.devRef .tc main_v1) = W4 m ρ c (Proc.devRef .tc main_v1)).trans
    ((W4_of_ne m ρ c main_v1 (by decide)).trans
    ((by keep_host hostOps1 : W3 m ρ c (Proc.devRef .tc main_v1) = W2 m ρ c (Proc.devRef .tc main_v1)))))

theorem k6_arg3 (c : Dev nD) : W6 m ρ c (Proc.devRef .tc main_arg3) = m ((c : Thread nD τ).loc main_arg3) :=
  (W6_of_ne m ρ c main_arg3 (by decide)).trans
    ((by keep_host hostOps2 : W5 m ρ c (Proc.devRef .tc main_arg3) = W4 m ρ c (Proc.devRef .tc main_arg3)).trans
    ((W4_of_ne m ρ c main_arg3 (by decide)).trans
    ((by keep_host hostOps1 : W3 m ρ c (Proc.devRef .tc main_arg3) = W2 m ρ c (Proc.devRef .tc main_arg3)).trans
    ((W2_of_ne m ρ c main_arg3 (by decide)).trans
    ((by keep_host hostOps0 : W1 m ρ c (Proc.devRef .tc main_arg3) = W0 m ρ c (Proc.devRef .tc main_arg3)).trans
    ((rfl : W0 m ρ c (Proc.devRef .tc main_arg3) = m ((c : Thread nD τ).loc main_arg3))))))))

theorem k7_arg12 (c : Dev nD) : W7 m ρ c (Proc.devRef .tc main_arg12) = m ((c : Thread nD τ).loc main_arg12) :=
  (by keep_host hostOps3 : W7 m ρ c (Proc.devRef .tc main_arg12) = W6 m ρ c (Proc.devRef .tc main_arg12)).trans
    ((W6_of_ne m ρ c main_arg12 (by decide)).trans
    ((by keep_host hostOps2 : W5 m ρ c (Proc.devRef .tc main_arg12) = W4 m ρ c (Proc.devRef .tc main_arg12)).trans
    ((W4_of_ne m ρ c main_arg12 (by decide)).trans
    ((by keep_host hostOps1 : W3 m ρ c (Proc.devRef .tc main_arg12) = W2 m ρ c (Proc.devRef .tc main_arg12)).trans
    ((W2_of_ne m ρ c main_arg12 (by decide)).trans
    ((by keep_host hostOps0 : W1 m ρ c (Proc.devRef .tc main_arg12) = W0 m ρ c (Proc.devRef .tc main_arg12)).trans
    ((rfl : W0 m ρ c (Proc.devRef .tc main_arg12) = m ((c : Thread nD τ).loc main_arg12)))))))))

theorem k6_arg13 (c : Dev nD) : W6 m ρ c (Proc.devRef .tc main_arg13) = m ((c : Thread nD τ).loc main_arg13) :=
  (W6_of_ne m ρ c main_arg13 (by decide)).trans
    ((by keep_host hostOps2 : W5 m ρ c (Proc.devRef .tc main_arg13) = W4 m ρ c (Proc.devRef .tc main_arg13)).trans
    ((W4_of_ne m ρ c main_arg13 (by decide)).trans
    ((by keep_host hostOps1 : W3 m ρ c (Proc.devRef .tc main_arg13) = W2 m ρ c (Proc.devRef .tc main_arg13)).trans
    ((W2_of_ne m ρ c main_arg13 (by decide)).trans
    ((by keep_host hostOps0 : W1 m ρ c (Proc.devRef .tc main_arg13) = W0 m ρ c (Proc.devRef .tc main_arg13)).trans
    ((rfl : W0 m ρ c (Proc.devRef .tc main_arg13) = m ((c : Thread nD τ).loc main_arg13))))))))

theorem k7_v28 (c : Dev nD) : W7 m ρ c (Proc.devRef .tc main_v28) = W6 m ρ c (Proc.devRef .tc main_v28) :=
  (by keep_host hostOps3 : W7 m ρ c (Proc.devRef .tc main_v28) = W6 m ρ c (Proc.devRef .tc main_v28))

theorem k7_arg14 (c : Dev nD) : W7 m ρ c (Proc.devRef .tc main_arg14) = m ((c : Thread nD τ).loc main_arg14) :=
  (by keep_host hostOps3 : W7 m ρ c (Proc.devRef .tc main_arg14) = W6 m ρ c (Proc.devRef .tc main_arg14)).trans
    ((W6_of_ne m ρ c main_arg14 (by decide)).trans
    ((by keep_host hostOps2 : W5 m ρ c (Proc.devRef .tc main_arg14) = W4 m ρ c (Proc.devRef .tc main_arg14)).trans
    ((W4_of_ne m ρ c main_arg14 (by decide)).trans
    ((by keep_host hostOps1 : W3 m ρ c (Proc.devRef .tc main_arg14) = W2 m ρ c (Proc.devRef .tc main_arg14)).trans
    ((W2_of_ne m ρ c main_arg14 (by decide)).trans
    ((by keep_host hostOps0 : W1 m ρ c (Proc.devRef .tc main_arg14) = W0 m ρ c (Proc.devRef .tc main_arg14)).trans
    ((rfl : W0 m ρ c (Proc.devRef .tc main_arg14) = m ((c : Thread nD τ).loc main_arg14)))))))))

theorem k8_arg4 (c : Dev nD) : W8 m ρ c (Proc.devRef .tc main_arg4) = m ((c : Thread nD τ).loc main_arg4) :=
  (W8_of_ne m ρ c main_arg4 (by decide)).trans
    ((by keep_host hostOps3 : W7 m ρ c (Proc.devRef .tc main_arg4) = W6 m ρ c (Proc.devRef .tc main_arg4)).trans
    ((W6_of_ne m ρ c main_arg4 (by decide)).trans
    ((by keep_host hostOps2 : W5 m ρ c (Proc.devRef .tc main_arg4) = W4 m ρ c (Proc.devRef .tc main_arg4)).trans
    ((W4_of_ne m ρ c main_arg4 (by decide)).trans
    ((by keep_host hostOps1 : W3 m ρ c (Proc.devRef .tc main_arg4) = W2 m ρ c (Proc.devRef .tc main_arg4)).trans
    ((W2_of_ne m ρ c main_arg4 (by decide)).trans
    ((by keep_host hostOps0 : W1 m ρ c (Proc.devRef .tc main_arg4) = W0 m ρ c (Proc.devRef .tc main_arg4)).trans
    ((rfl : W0 m ρ c (Proc.devRef .tc main_arg4) = m ((c : Thread nD τ).loc main_arg4))))))))))

theorem k9_arg15 (c : Dev nD) : W9 m ρ c (Proc.devRef .tc main_arg15) = m ((c : Thread nD τ).loc main_arg15) :=
  (by keep_host hostOps4 : W9 m ρ c (Proc.devRef .tc main_arg15) = W8 m ρ c (Proc.devRef .tc main_arg15)).trans
    ((W8_of_ne m ρ c main_arg15 (by decide)).trans
    ((by keep_host hostOps3 : W7 m ρ c (Proc.devRef .tc main_arg15) = W6 m ρ c (Proc.devRef .tc main_arg15)).trans
    ((W6_of_ne m ρ c main_arg15 (by decide)).trans
    ((by keep_host hostOps2 : W5 m ρ c (Proc.devRef .tc main_arg15) = W4 m ρ c (Proc.devRef .tc main_arg15)).trans
    ((W4_of_ne m ρ c main_arg15 (by decide)).trans
    ((by keep_host hostOps1 : W3 m ρ c (Proc.devRef .tc main_arg15) = W2 m ρ c (Proc.devRef .tc main_arg15)).trans
    ((W2_of_ne m ρ c main_arg15 (by decide)).trans
    ((by keep_host hostOps0 : W1 m ρ c (Proc.devRef .tc main_arg15) = W0 m ρ c (Proc.devRef .tc main_arg15)).trans
    ((rfl : W0 m ρ c (Proc.devRef .tc main_arg15) = m ((c : Thread nD τ).loc main_arg15)))))))))))

theorem k8_arg16 (c : Dev nD) : W8 m ρ c (Proc.devRef .tc main_arg16) = m ((c : Thread nD τ).loc main_arg16) :=
  (W8_of_ne m ρ c main_arg16 (by decide)).trans
    ((by keep_host hostOps3 : W7 m ρ c (Proc.devRef .tc main_arg16) = W6 m ρ c (Proc.devRef .tc main_arg16)).trans
    ((W6_of_ne m ρ c main_arg16 (by decide)).trans
    ((by keep_host hostOps2 : W5 m ρ c (Proc.devRef .tc main_arg16) = W4 m ρ c (Proc.devRef .tc main_arg16)).trans
    ((W4_of_ne m ρ c main_arg16 (by decide)).trans
    ((by keep_host hostOps1 : W3 m ρ c (Proc.devRef .tc main_arg16) = W2 m ρ c (Proc.devRef .tc main_arg16)).trans
    ((W2_of_ne m ρ c main_arg16 (by decide)).trans
    ((by keep_host hostOps0 : W1 m ρ c (Proc.devRef .tc main_arg16) = W0 m ρ c (Proc.devRef .tc main_arg16)).trans
    ((rfl : W0 m ρ c (Proc.devRef .tc main_arg16) = m ((c : Thread nD τ).loc main_arg16))))))))))

theorem k9_arg1 (c : Dev nD) : W9 m ρ c (Proc.devRef .tc main_arg1) = m ((c : Thread nD τ).loc main_arg1) :=
  (by keep_host hostOps4 : W9 m ρ c (Proc.devRef .tc main_arg1) = W8 m ρ c (Proc.devRef .tc main_arg1)).trans
    ((W8_of_ne m ρ c main_arg1 (by decide)).trans
    ((by keep_host hostOps3 : W7 m ρ c (Proc.devRef .tc main_arg1) = W6 m ρ c (Proc.devRef .tc main_arg1)).trans
    ((W6_of_ne m ρ c main_arg1 (by decide)).trans
    ((by keep_host hostOps2 : W5 m ρ c (Proc.devRef .tc main_arg1) = W4 m ρ c (Proc.devRef .tc main_arg1)).trans
    (((W4_arr m ρ c 0).trans (((dat1 (V3 m ρ) c).arrAt_in 0 rfl _).trans (A_eq1 (V3 m ρ) c 0))).trans
    ((by keep_host hostOps1 : W3 m ρ c (Proc.devRef .tc main_arg1) = W2 m ρ c (Proc.devRef .tc main_arg1)).trans
    ((W2_of_ne m ρ c main_arg1 (by decide)).trans
    ((by keep_host hostOps0 : W1 m ρ c (Proc.devRef .tc main_arg1) = W0 m ρ c (Proc.devRef .tc main_arg1)).trans
    ((rfl : W0 m ρ c (Proc.devRef .tc main_arg1) = m ((c : Thread nD τ).loc main_arg1)))))))))))

theorem k9_arg17 (c : Dev nD) : W9 m ρ c (Proc.devRef .tc main_arg17) = m ((c : Thread nD τ).loc main_arg17) :=
  (by keep_host hostOps4 : W9 m ρ c (Proc.devRef .tc main_arg17) = W8 m ρ c (Proc.devRef .tc main_arg17)).trans
    ((W8_of_ne m ρ c main_arg17 (by decide)).trans
    ((by keep_host hostOps3 : W7 m ρ c (Proc.devRef .tc main_arg17) = W6 m ρ c (Proc.devRef .tc main_arg17)).trans
    ((W6_of_ne m ρ c main_arg17 (by decide)).trans
    ((by keep_host hostOps2 : W5 m ρ c (Proc.devRef .tc main_arg17) = W4 m ρ c (Proc.devRef .tc main_arg17)).trans
    ((W4_of_ne m ρ c main_arg17 (by decide)).trans
    ((by keep_host hostOps1 : W3 m ρ c (Proc.devRef .tc main_arg17) = W2 m ρ c (Proc.devRef .tc main_arg17)).trans
    ((W2_of_ne m ρ c main_arg17 (by decide)).trans
    ((by keep_host hostOps0 : W1 m ρ c (Proc.devRef .tc main_arg17) = W0 m ρ c (Proc.devRef .tc main_arg17)).trans
    ((rfl : W0 m ρ c (Proc.devRef .tc main_arg17) = m ((c : Thread nD τ).loc main_arg17)))))))))))

theorem k11_v78 (c : Dev nD) : W11 m ρ c (Proc.devRef .tc main_v78) = W10 m ρ c (Proc.devRef .tc main_v78) :=
  (by keep_host hostOps5 : W11 m ρ c (Proc.devRef .tc main_v78) = W10 m ρ c (Proc.devRef .tc main_v78))

theorem k11_arg18 (c : Dev nD) : W11 m ρ c (Proc.devRef .tc main_arg18) = m ((c : Thread nD τ).loc main_arg18) :=
  (by keep_host hostOps5 : W11 m ρ c (Proc.devRef .tc main_arg18) = W10 m ρ c (Proc.devRef .tc main_arg18)).trans
    ((W10_of_ne m ρ c main_arg18 (by decide)).trans
    ((by keep_host hostOps4 : W9 m ρ c (Proc.devRef .tc main_arg18) = W8 m ρ c (Proc.devRef .tc main_arg18)).trans
    ((W8_of_ne m ρ c main_arg18 (by decide)).trans
    ((by keep_host hostOps3 : W7 m ρ c (Proc.devRef .tc main_arg18) = W6 m ρ c (Proc.devRef .tc main_arg18)).trans
    ((W6_of_ne m ρ c main_arg18 (by decide)).trans
    ((by keep_host hostOps2 : W5 m ρ c (Proc.devRef .tc main_arg18) = W4 m ρ c (Proc.devRef .tc main_arg18)).trans
    ((W4_of_ne m ρ c main_arg18 (by decide)).trans
    ((by keep_host hostOps1 : W3 m ρ c (Proc.devRef .tc main_arg18) = W2 m ρ c (Proc.devRef .tc main_arg18)).trans
    ((W2_of_ne m ρ c main_arg18 (by decide)).trans
    ((by keep_host hostOps0 : W1 m ρ c (Proc.devRef .tc main_arg18) = W0 m ρ c (Proc.devRef .tc main_arg18)).trans
    ((rfl : W0 m ρ c (Proc.devRef .tc main_arg18) = m ((c : Thread nD τ).loc main_arg18)))))))))))))

theorem k10_arg19 (c : Dev nD) : W10 m ρ c (Proc.devRef .tc main_arg19) = m ((c : Thread nD τ).loc main_arg19) :=
  (W10_of_ne m ρ c main_arg19 (by decide)).trans
    ((by keep_host hostOps4 : W9 m ρ c (Proc.devRef .tc main_arg19) = W8 m ρ c (Proc.devRef .tc main_arg19)).trans
    ((W8_of_ne m ρ c main_arg19 (by decide)).trans
    ((by keep_host hostOps3 : W7 m ρ c (Proc.devRef .tc main_arg19) = W6 m ρ c (Proc.devRef .tc main_arg19)).trans
    ((W6_of_ne m ρ c main_arg19 (by decide)).trans
    ((by keep_host hostOps2 : W5 m ρ c (Proc.devRef .tc main_arg19) = W4 m ρ c (Proc.devRef .tc main_arg19)).trans
    ((W4_of_ne m ρ c main_arg19 (by decide)).trans
    ((by keep_host hostOps1 : W3 m ρ c (Proc.devRef .tc main_arg19) = W2 m ρ c (Proc.devRef .tc main_arg19)).trans
    ((W2_of_ne m ρ c main_arg19 (by decide)).trans
    ((by keep_host hostOps0 : W1 m ρ c (Proc.devRef .tc main_arg19) = W0 m ρ c (Proc.devRef .tc main_arg19)).trans
    ((rfl : W0 m ρ c (Proc.devRef .tc main_arg19) = m ((c : Thread nD τ).loc main_arg19))))))))))))

/-! ## The layers' values of the launch arguments -/

def AX (c : Dev nD) : FVec Ideal S50000x1024 .f32 :=
  affineRow (M := 50000) (K := 768) (N := 1024) (m ((c : Thread nD τ).loc main_arg0)) (m ((c : Thread nD τ).loc main_arg5)) (shapeCast S1x1024 (m ((c : Thread nD τ).loc main_arg6)) shapeCasts_S1024_S1x1024)
def CX (c : Dev nD) : FVec Ideal S50000x1024 .f32 :=
  affineRow (M := 50000) (K := 768) (N := 1024) (m ((c : Thread nD τ).loc main_arg1)) (m ((c : Thread nD τ).loc main_arg7)) (shapeCast S1x1024 (m ((c : Thread nD τ).loc main_arg8)) shapeCasts_S1024_S1x1024)
def H1 (c : Dev nD) : FVec Ideal S50000x256 .f32 :=
  sageRow (M := 50000) (K := 1024) (K' := 1024) (N := 256) (mean200 (AX m c) (m ((c : Thread nD τ).loc main_arg2))) (m ((c : Thread nD τ).loc main_arg9)) (shapeCast S1x256 (m ((c : Thread nD τ).loc main_arg10)) shapeCasts_S256_S1x256) (CX m c) (m ((c : Thread nD τ).loc main_arg11))
def H2 (c : Dev nD) : FVec Ideal S50000x256 .f32 :=
  sageRow (M := 50000) (K := 1024) (K' := 256) (N := 256) (mean200 (AX m c) (m ((c : Thread nD τ).loc main_arg3))) (m ((c : Thread nD τ).loc main_arg12)) (shapeCast S1x256 (m ((c : Thread nD τ).loc main_arg13)) shapeCasts_S256_S1x256) (H1 m c) (m ((c : Thread nD τ).loc main_arg14))
def H3 (c : Dev nD) : FVec Ideal S50000x256 .f32 :=
  sageRow (M := 50000) (K := 256) (K' := 768) (N := 256) (mean500 (H2 m c) (m ((c : Thread nD τ).loc main_arg4))) (m ((c : Thread nD τ).loc main_arg15)) (shapeCast S1x256 (m ((c : Thread nD τ).loc main_arg16)) shapeCasts_S256_S1x256) (m ((c : Thread nD τ).loc main_arg1)) (m ((c : Thread nD τ).loc main_arg17))
def OUT (c : Dev nD) : FVec Ideal S50000x128 .f32 :=
  affineRow (M := 50000) (K := 256) (N := 128) (H3 m c) (m ((c : Thread nD τ).loc main_arg18)) (shapeCast S1x128 (m ((c : Thread nD τ).loc main_arg19)) shapeCasts_S128_S1x128)

/-! ## The chain of boundaries -/

theorem ax_eq (c : Dev nD) : W2 m ρ c (Proc.devRef .tc main_v1) = AX m c :=
  (W2_arr m ρ c 3).trans ((Blocks0.final (V1 m ρ) c).trans (by
    show affineRow (M := 50000) (K := 768) (N := 1024) (W1 m ρ c (Proc.devRef .tc main_arg0)) (W1 m ρ c (Proc.devRef .tc main_arg5)) (W1 m ρ c (Proc.devRef .tc main_v0)) = _
    rw [k1_arg0 m ρ c, k1_arg5 m ρ c, show W1 m ρ c (Proc.devRef .tc main_v0) = _ from read0 (W0 m ρ c)]
    rfl))

theorem cx_eq (c : Dev nD) : W4 m ρ c (Proc.devRef .tc main_v3) = CX m c :=
  (W4_arr m ρ c 3).trans ((Blocks1.final (V3 m ρ) c).trans (by
    show affineRow (M := 50000) (K := 768) (N := 1024) (W3 m ρ c (Proc.devRef .tc main_arg1)) (W3 m ρ c (Proc.devRef .tc main_arg7)) (W3 m ρ c (Proc.devRef .tc main_v2)) = _
    rw [k3_arg1 m ρ c, k3_arg7 m ρ c, show W3 m ρ c (Proc.devRef .tc main_v2) = _ from read1 (W2 m ρ c), k2_arg8 m ρ c]
    rfl))

theorem h1_eq (c : Dev nD) : W6 m ρ c (Proc.devRef .tc main_v28) = H1 m c :=
  (W6_arr m ρ c 5).trans ((Blocks2.final (V5 m ρ) c).trans (by
    show sageRow (M := 50000) (K := 1024) (K' := 1024) (N := 256) (W5 m ρ c (Proc.devRef .tc main_v26)) (W5 m ρ c (Proc.devRef .tc main_arg9)) (W5 m ρ c (Proc.devRef .tc main_v27)) (W5 m ρ c (Proc.devRef .tc main_v3)) (W5 m ρ c (Proc.devRef .tc main_arg11)) = _
    rw [show W5 m ρ c (Proc.devRef .tc main_v26) = _ from read2_mean (W4 m ρ c), k4_v1 m ρ c, ax_eq m ρ c, k4_arg2 m ρ c, k5_arg9 m ρ c,
      show W5 m ρ c (Proc.devRef .tc main_v27) = _ from read2_bias (W4 m ρ c), k4_arg10 m ρ c, k5_v3 m ρ c, cx_eq m ρ c, k5_arg11 m ρ c]
    rfl))

theorem h2_eq (c : Dev nD) : W8 m ρ c (Proc.devRef .tc main_v53) = H2 m c :=
  (W8_arr m ρ c 5).trans ((Blocks3.final (V7 m ρ) c).trans (by
    show sageRow (M := 50000) (K := 1024) (K' := 256) (N := 256) (W7 m ρ c (Proc.devRef .tc main_v51)) (W7 m ρ c (Proc.devRef .tc main_arg12)) (W7 m ρ c (Proc.devRef .tc main_v52)) (W7 m ρ c (Proc.devRef .tc main_v28)) (W7 m ρ c (Proc.devRef .tc main_arg14)) = _
    rw [show W7 m ρ c (Proc.devRef .tc main_v51) = _ from read3_mean (W6 m ρ c), k6_v1 m ρ c, ax_eq m ρ c, k6_arg3 m ρ c, k7_arg12 m ρ c,
      show W7 m ρ c (Proc.devRef .tc main_v52) = _ from read3_bias (W6 m ρ c), k6_arg13 m ρ c, k7_v28 m ρ c, h1_eq m ρ c, k7_arg14 m ρ c]
    rfl))

theorem h3_eq (c : Dev nD) : W10 m ρ c (Proc.devRef .tc main_v78) = H3 m c :=
  (W10_arr m ρ c 5).trans ((Blocks4.final (V9 m ρ) c).trans (by
    show sageRow (M := 50000) (K := 256) (K' := 768) (N := 256) (W9 m ρ c (Proc.devRef .tc main_v76)) (W9 m ρ c (Proc.devRef .tc main_arg15)) (W9 m ρ c (Proc.devRef .tc main_v77)) (W9 m ρ c (Proc.devRef .tc main_arg1)) (W9 m ρ c (Proc.devRef .tc main_arg17)) = _
    rw [show W9 m ρ c (Proc.devRef .tc main_v76) = _ from read4_mean (W8 m ρ c), h2_eq m ρ c, k8_arg4 m ρ c, k9_arg15 m ρ c,
      show W9 m ρ c (Proc.devRef .tc main_v77) = _ from read4_bias (W8 m ρ c), k8_arg16 m ρ c, k9_arg1 m ρ c, k9_arg17 m ρ c]
    rfl))

/-- The result buffer at the last boundary is the network of the launch arguments. -/
theorem out_eq (c : Dev nD) : W12 m ρ c (Proc.devRef .tc main_v80) = OUT m c :=
  (W12_arr m ρ c 3).trans ((Blocks5.final (V11 m ρ) c).trans (by
    show affineRow (M := 50000) (K := 256) (N := 128) (W11 m ρ c (Proc.devRef .tc main_v78)) (W11 m ρ c (Proc.devRef .tc main_arg18)) (W11 m ρ c (Proc.devRef .tc main_v79)) = _
    rw [k11_v78 m ρ c, h3_eq m ρ c, k11_arg18 m ρ c, show W11 m ρ c (Proc.devRef .tc main_v79) = _ from read5 (W10 m ρ c), k10_arg19 m ρ c]
    rfl))

end Cert.KernelIdeal.Net

end
-- ==== Proof.RefNet.lean ====
/-
  The reference program's result as a composition of its layers.

  The reference computes two affine layers (of the article and of the community features), three neighbourhood layers
  — each the positive part of (mean·Wl + bias) + dst·Wr, the mean taken over the incoming edges of each community
  node — and a final affine layer.  Its run ends with the result at one long term; here that term is cut into the
  layers, and each dense layer is identified with the layer function of the whole arrays (module LibDenseLayers).
-/
import proofs.«171405_j59785944760472_1_alg».proof.Proof.Gen.ReferenceIdeal.Run
import proofs.«171405_j59785944760472_1_alg».proof.Proof.LibDenseLayers

set_option maxRecDepth 16384

noncomputable section

namespace Cert.ReferenceIdeal.Net

open Cert.ReferenceIdeal Cert.ReferenceIdeal.Gen Cert.ReferenceIdeal.Value Cert.LibDenseLayers
open Idealize.ShloMosaic Idealize.ShloMosaic.TcCoe Idealize.SL.Sem

/-- The contents of a buffer of the given shape and element type at the exact instance. -/
abbrev BT (s : Shape) (e : EltTy) : Type := (⟨s, e⟩ : BufTy).Contents (Elt Ideal)

/-- Mean aggregation over 200000 edges of 1024-wide rows: gather the source rows (negative indices wrapped, out-of-range
    ones clamped by the gather), add them into the destination rows, count the edges per destination, and divide by
    the count or by one where there is none. -/
def mean200 (X : FVec Ideal S50000x1024 .f32) (E : BT S2x200000 .i32) : FVec Ideal S50000x1024 .f32 :=
  Host.divf (F := Ideal) (Host.scatterAdd scatter_S50000x1024_S200000x1_S200000x1024_1_0_0_1 (broadcastInDim S50000x1024 ![] bcast_S_S50000x1024 (constant S_ .f32 0x00000000#32)) (broadcastInDim S200000x1 ![0] bcast_S200000_S200000x1_0 (shapeCast _ (extractStridedSlice S1x200000 ![1, 0] E slices_S2x200000_S1x200000_1_0) shapeCasts_S1x200000_S200000)) (Host.gather gather_S50000x1024_S200000x1_S200000x1024_1_0_n_n_0_1_11024 X (broadcastInDim S200000x1 ![0] bcast_S200000_S200000x1_0 (select (cmpi .slt (shapeCast _ (extractStridedSlice S1x200000 ![0, 0] E slices_S2x200000_S1x200000_0_0) shapeCasts_S1x200000_S200000) (broadcastInDim S200000 ![] bcast_S_S200000 (constantI S_ 32 0#32))) (addi (shapeCast _ (extractStridedSlice S1x200000 ![0, 0] E slices_S2x200000_S1x200000_0_0) shapeCasts_S1x200000_S200000) (broadcastInDim S200000 ![] bcast_S_S200000 (constantI S_ 32 50000#32))) (shapeCast _ (extractStridedSlice S1x200000 ![0, 0] E slices_S2x200000_S1x200000_0_0) shapeCasts_S1x200000_S200000))))) (broadcastInDim S50000x1024 ![0, 1] bcast_S50000x1_S50000x1024_0_1 (broadcastInDim S50000x1 ![0] bcast_S50000_S50000x1_0 (maximumf (Host.scatterAdd scatter_S50000_S200000x1_S200000_n_0_0_1 (broadcastInDim S50000 ![] bcast_S_S50000 (constant S_ .f32 0x00000000#32)) (broadcastInDim S200000x1 ![0] bcast_S200000_S200000x1_0 (shapeCast _ (extractStridedSlice S1x200000 ![1, 0] E slices_S2x200000_S1x200000_1_0) shapeCasts_S1x200000_S200000)) (broadcastInDim S200000 ![] bcast_S_S200000 (constant S_ .f32 0x3F800000#32))) (broadcastInDim S50000 ![] bcast_S_S50000 (constant S_ .f32 0x3F800000#32)))))

/-- The same over 500000 edges of 256-wide rows. -/
def mean500 (X : FVec Ideal S50000x256 .f32) (E : BT S2x500000 .i32) : FVec Ideal S50000x256 .f32 :=
  Host.divf (F := Ideal) (Host.scatterAdd scatter_S50000x256_S500000x1_S500000x256_1_0_0_1 (broadcastInDim S50000x256 ![] bcast_S_S50000x256 (constant S_ .f32 0x00000000#32)) (broadcastInDim S500000x1 ![0] bcast_S500000_S500000x1_0 (shapeCast _ (extractStridedSlice S1x500000 ![1, 0] E slices_S2x500000_S1x500000_1_0) shapeCasts_S1x500000_S500000)) (Host.gather gather_S50000x256_S500000x1_S500000x256_1_0_n_n_0_1_1256 X (broadcastInDim S500000x1 ![0] bcast_S500000_S500000x1_0 (select (cmpi .slt (shapeCast _ (extractStridedSlice S1x500000 ![0, 0] E slices_S2x500000_S1x500000_0_0) shapeCasts_S1x500000_S500000) (broadcastInDim S500000 ![] bcast_S_S500000 (constantI S_ 32 0#32))) (addi (shapeCast _ (extractStridedSlice S1x500000 ![0, 0] E slices_S2x500000_S1x500000_0_0) shapeCasts_S1x500000_S500000) (broadcastInDim S500000 ![] bcast_S_S500000 (constantI S_ 32 50000#32))) (shapeCast _ (extractStridedSlice S1x500000 ![0, 0] E slices_S2x500000_S1x500000_0_0) shapeCasts_S1x500000_S500000))))) (broadcastInDim S50000x256 ![0, 1] bcast_S50000x1_S50000x256_0_1 (broadcastInDim S50000x1 ![0] bcast_S50000_S50000x1_0 (maximumf (Host.scatterAdd scatter_S50000_S500000x1_S500000_n_0_0_1 (broadcastInDim S50000 ![] bcast_S_S50000 (constant S_ .f32 0x00000000#32)) (broadcastInDim S500000x1 ![0] bcast_S500000_S500000x1_0 (shapeCast _ (extractStridedSlice S1x500000 ![1, 0] E slices_S2x500000_S1x500000_1_0) shapeCasts_S1x500000_S500000)) (broadcastInDim S500000 ![] bcast_S_S500000 (constant S_ .f32 0x3F800000#32))) (broadcastInDim S50000 ![] bcast_S_S50000 (constant S_ .f32 0x3F800000#32)))))

/-- The affine layer 768 → 1024 as the host spells it. -/
def linA (x : FVec Ideal S50000x768 .f32) (w : FVec Ideal S768x1024 .f32) (b : FVec Ideal S1024 .f32) : FVec Ideal S50000x1024 .f32 :=
  addf (F := Ideal) (Host.dotGeneral dot_S50000x768_S768x1024_S50000x1024_1_0_0_1_n_n none x w) (broadcastInDim S50000x1024 ![0, 1] bcast_S1x1024_S50000x1024_0_1 (broadcastInDim S1x1024 ![1] bcast_S1024_S1x1024_1 b))

/-- The affine layer 256 → 128 as the host spells it. -/
def linB (x : FVec Ideal S50000x256 .f32) (w : FVec Ideal S256x128 .f32) (b : FVec Ideal S128 .f32) : FVec Ideal S50000x128 .f32 :=
  addf (F := Ideal) (Host.dotGeneral dot_S50000x256_S256x128_S50000x128_1_0_0_1_n_n none x w) (broadcastInDim S50000x128 ![0, 1] bcast_S1x128_S50000x128_0_1 (broadcastInDim S1x128 ![1] bcast_S128_S1x128_1 b))

/-- The first neighbourhood layer (1024-wide mean, 1024-wide own features) as the host spells it. -/
def sage1 (mean : FVec Ideal S50000x1024 .f32) (wl : FVec Ideal S1024x256 .f32) (bl : FVec Ideal S256 .f32) (dst : FVec Ideal S50000x1024 .f32) (wr : FVec Ideal S1024x256 .f32) : FVec Ideal S50000x256 .f32 :=
  maximumf (F := Ideal) (addf (addf (Host.dotGeneral dot_S50000x1024_S1024x256_S50000x256_1_0_0_1_n_n none mean wl) (broadcastInDim S50000x256 ![0, 1] bcast_S1x256_S50000x256_0_1 (broadcastInDim S1x256 ![1] bcast_S256_S1x256_1 bl))) (Host.dotGeneral dot_S50000x1024_S1024x256_S50000x256_1_0_0_1_n_n none dst wr)) (broadcastInDim S50000x256 ![] bcast_S_S50000x256 (constant S_ .f32 0x00000000#32))

/-- The second (1024-wide mean, 256-wide own features). -/
def sage2 (mean : FVec Ideal S50000x1024 .f32) (wl : FVec Ideal S1024x256 .f32) (bl : FVec Ideal S256 .f32) (dst : FVec Ideal S50000x256 .f32) (wr : FVec Ideal S256x256 .f32) : FVec Ideal S50000x256 .f32 :=
  maximumf (F := Ideal) (addf (addf (Host.dotGeneral dot_S50000x1024_S1024x256_S50000x256_1_0_0_1_n_n none mean wl) (broadcastInDim S50000x256 ![0, 1] bcast_S1x256_S50000x256_0_1 (broadcastInDim S1x256 ![1] bcast_S256_S1x256_1 bl))) (Host.dotGeneral dot_S50000x256_S256x256_S50000x256_1_0_0_1_n_n none dst wr)) (broadcastInDim S50000x256 ![] bcast_S_S50000x256 (constant S_ .f32 0x00000000#32))

/-- The third (256-wide mean, 768-wide own features). -/
def sage3 (mean : FVec Ideal S50000x256 .f32) (wl : FVec Ideal S256x256 .f32) (bl : FVec Ideal S256 .f32) (dst : FVec Ideal S50000x768 .f32) (wr : FVec Ideal S768x256 .f32) : FVec Ideal S50000x256 .f32 :=
  maximumf (F := Ideal) (addf (addf (Host.dotGeneral dot_S50000x256_S256x256_S50000x256_1_0_0_1_n_n none mean wl) (broadcastInDim S50000x256 ![0, 1] bcast_S1x256_S50000x256_0_1 (broadcastInDim S1x256 ![1] bcast_S256_S1x256_1 bl))) (Host.dotGeneral dot_S50000x768_S768x256_S50000x256_1_0_0_1_n_n none dst wr)) (broadcastInDim S50000x256 ![] bcast_S_S50000x256 (constant S_ .f32 0x00000000#32))

/-- The whole network as the host composes it. -/
def net (a0 a1 : FVec Ideal S50000x768 .f32) (e2 e3 : BT S2x200000 .i32) (e4 : BT S2x500000 .i32)
    (a5 : FVec Ideal S768x1024 .f32) (a6 : FVec Ideal S1024 .f32) (a7 : FVec Ideal S768x1024 .f32) (a8 : FVec Ideal S1024 .f32)
    (a9 : FVec Ideal S1024x256 .f32) (a10 : FVec Ideal S256 .f32) (a11 : FVec Ideal S1024x256 .f32)
    (a12 : FVec Ideal S1024x256 .f32) (a13 : FVec Ideal S256 .f32) (a14 : FVec Ideal S256x256 .f32)
    (a15 : FVec Ideal S256x256 .f32) (a16 : FVec Ideal S256 .f32) (a17 : FVec Ideal S768x256 .f32)
    (a18 : FVec Ideal S256x128 .f32) (a19 : FVec Ideal S128 .f32) : FVec Ideal S50000x128 .f32 :=
  linB (sage3 (mean500 (sage2 (mean200 (linA a0 a5 a6) e3) a12 a13 (sage1 (mean200 (linA a0 a5 a6) e2) a9 a10 (linA a1 a7 a8) a11) a14) e4) a15 a16 a1 a17) a18 a19

/-- The run's result term is the network of the launch arguments. -/
theorem res_eq (m : (ℓ : Loc nD τ sig) → Buf (Elt Ideal) ℓ) (c : Dev nD) :
    res_main_v101 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) := by
  unfold res_main_v101 net linA linB sage1 sage2 sage3 mean200 mean500
  rfl

/-! ## Each dense layer is the layer function of the whole arrays -/

theorem linA_eq (x : FVec Ideal S50000x768 .f32) (w : FVec Ideal S768x1024 .f32) (b : FVec Ideal S1024 .f32) (hc : S1024.ShapeCasts S1x1024) :
    linA x w b = affineRow (M := 50000) (K := 768) (N := 1024) x w (shapeCast S1x1024 b hc) :=
  hostAffine_eq _ rfl rfl rfl rfl rfl rfl x w b _ _ hc

theorem linB_eq (x : FVec Ideal S50000x256 .f32) (w : FVec Ideal S256x128 .f32) (b : FVec Ideal S128 .f32) (hc : S128.ShapeCasts S1x128) :
    linB x w b = affineRow (M := 50000) (K := 256) (N := 128) x w (shapeCast S1x128 b hc) :=
  hostAffine_eq _ rfl rfl rfl rfl rfl rfl x w b _ _ hc

theorem sage1_eq (mean : FVec Ideal S50000x1024 .f32) (wl : FVec Ideal S1024x256 .f32) (bl : FVec Ideal S256 .f32) (dst : FVec Ideal S50000x1024 .f32) (wr : FVec Ideal S1024x256 .f32)
    (hc : S256.ShapeCasts S1x256) :
    sage1 mean wl bl dst wr = sageRow (M := 50000) (K := 1024) (K' := 1024) (N := 256) mean wl (shapeCast S1x256 bl hc) dst wr :=
  hostSage_eq _ _ rfl rfl rfl rfl rfl rfl rfl rfl rfl rfl rfl rfl mean wl bl dst wr _ _ _ hc

theorem sage2_eq (mean : FVec Ideal S50000x1024 .f32) (wl : FVec Ideal S1024x256 .f32) (bl : FVec Ideal S256 .f32) (dst : FVec Ideal S50000x256 .f32) (wr : FVec Ideal S256x256 .f32)
    (hc : S256.ShapeCasts S1x256) :
    sage2 mean wl bl dst wr = sageRow (M := 50000) (K := 1024) (K' := 256) (N := 256) mean wl (shapeCast S1x256 bl hc) dst wr :=
  hostSage_eq _ _ rfl rfl rfl rfl rfl rfl rfl rfl rfl rfl rfl rfl mean wl bl dst wr _ _ _ hc

theorem sage3_eq (mean : FVec Ideal S50000x256 .f32) (wl : FVec Ideal S256x256 .f32) (bl : FVec Ideal S256 .f32) (dst : FVec Ideal S50000x768 .f32) (wr : FVec Ideal S768x256 .f32)
    (hc : S256.ShapeCasts S1x256) :
    sage3 mean wl bl dst wr = sageRow (M := 50000) (K := 256) (K' := 768) (N := 256) mean wl (shapeCast S1x256 bl hc) dst wr :=
  hostSage_eq _ _ rfl rfl rfl rfl rfl rfl rfl rfl rfl rfl rfl rfl mean wl bl dst wr _ _ _ hc

end Cert.ReferenceIdeal.Net

end
-- ==== Proof.Bridge.lean ====
/-
  The two programs compute one function.

  Both results are the same composition of layers of the launch arguments: the dense layers of either program are
  the layer functions of the whole arrays (for the host's neighbourhood layers after reordering the three summands,
  which addition of extended reals allows without any finiteness), the bias vector enters both as its one-row
  reshape, and the mean aggregations between the layers are the same host operations in both programs.
-/
import proofs.«171405_j59785944760472_1_alg».proof.Proof.Chain
import proofs.«171405_j59785944760472_1_alg».proof.Proof.RefNet

set_option maxRecDepth 16384

noncomputable section

namespace Cert.Bridge

open Cert.LibDenseLayers Idealize.ShloMosaic Idealize.ShloMosaic.TcCoe Idealize.SL.Sem

/-- The mean aggregation over 200000 edges is spelt identically in the two programs. -/
theorem mean200_eq (X : FVec Ideal Cert.ReferenceIdeal.S50000x1024 .f32) (E : Cert.ReferenceIdeal.Net.BT Cert.ReferenceIdeal.S2x200000 .i32) :
    Cert.ReferenceIdeal.Net.mean200 X E = Cert.KernelIdeal.Net.mean200 X E := rfl

/-- So is the one over 500000 edges. -/
theorem mean500_eq (X : FVec Ideal Cert.ReferenceIdeal.S50000x256 .f32) (E : Cert.ReferenceIdeal.Net.BT Cert.ReferenceIdeal.S2x500000 .i32) :
    Cert.ReferenceIdeal.Net.mean500 X E = Cert.KernelIdeal.Net.mean500 X E := rfl

/-- From memories that agree on the arguments, the reference's result term is the kernel's network value. -/
theorem net_eq (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ)
    (c : Dev Cert.KernelIdeal.nD)
    (hagree : (mR ((c.tc : Thread Cert.ReferenceIdeal.nD Cert.ReferenceIdeal.τ).loc Cert.ReferenceIdeal.main_arg0)) = (mK ((c.tc : Thread Cert.KernelIdeal.nD Cert.KernelIdeal.τ).loc Cert.KernelIdeal.main_arg0))
      ∧ (mR ((c.tc : Thread Cert.ReferenceIdeal.nD Cert.ReferenceIdeal.τ).loc Cert.ReferenceIdeal.main_arg1)) = (mK ((c.tc : Thread Cert.KernelIdeal.nD Cert.KernelIdeal.τ).loc Cert.KernelIdeal.main_arg1))
      ∧ (mR ((c.tc : Thread Cert.ReferenceIdeal.nD Cert.ReferenceIdeal.τ).loc Cert.ReferenceIdeal.main_arg2)) = (mK ((c.tc : Thread Cert.KernelIdeal.nD Cert.KernelIdeal.τ).loc Cert.KernelIdeal.main_arg2))
      ∧ (mR ((c.tc : Thread Cert.ReferenceIdeal.nD Cert.ReferenceIdeal.τ).loc Cert.ReferenceIdeal.main_arg3)) = (mK ((c.tc : Thread Cert.KernelIdeal.nD Cert.KernelIdeal.τ).loc Cert.KernelIdeal.main_arg3))
      ∧ (mR ((c.tc : Thread Cert.ReferenceIdeal.nD Cert.ReferenceIdeal.τ).loc Cert.ReferenceIdeal.main_arg4)) = (mK ((c.tc : Thread Cert.KernelIdeal.nD Cert.KernelIdeal.τ).loc Cert.KernelIdeal.main_arg4))
      ∧ (mR ((c.tc : Thread Cert.ReferenceIdeal.nD Cert.ReferenceIdeal.τ).loc Cert.ReferenceIdeal.main_arg5)) = (mK ((c.tc : Thread Cert.KernelIdeal.nD Cert.KernelIdeal.τ).loc Cert.KernelIdeal.main_arg5))
      ∧ (mR ((c.tc : Thread Cert.ReferenceIdeal.nD Cert.ReferenceIdeal.τ).loc Cert.ReferenceIdeal.main_arg6)) = (mK ((c.tc : Thread Cert.KernelIdeal.nD Cert.KernelIdeal.τ).loc Cert.KernelIdeal.main_arg6))
      ∧ (mR ((c.tc : Thread Cert.ReferenceIdeal.nD Cert.ReferenceIdeal.τ).loc Cert.ReferenceIdeal.main_arg7)) = (mK ((c.tc : Thread Cert.KernelIdeal.nD Cert.KernelIdeal.τ).loc Cert.KernelIdeal.main_arg7))
      ∧ (mR ((c.tc : Thread Cert.ReferenceIdeal.nD Cert.ReferenceIdeal.τ).loc Cert.ReferenceIdeal.main_arg8)) = (mK ((c.tc : Thread Cert.KernelIdeal.nD Cert.KernelIdeal.τ).loc Cert.KernelIdeal.main_arg8))
      ∧ (mR ((c.tc : Thread Cert.ReferenceIdeal.nD Cert.ReferenceIdeal.τ).loc Cert.ReferenceIdeal.main_arg9)) = (mK ((c.tc : Thread Cert.KernelIdeal.nD Cert.KernelIdeal.τ).loc Cert.KernelIdeal.main_arg9))
      ∧ (mR ((c.tc : Thread Cert.ReferenceIdeal.nD Cert.ReferenceIdeal.τ).loc Cert.ReferenceIdeal.main_arg10)) = (mK ((c.tc : Thread Cert.KernelIdeal.nD Cert.KernelIdeal.τ).loc Cert.KernelIdeal.main_arg10))
      ∧ (mR ((c.tc : Thread Cert.ReferenceIdeal.nD Cert.ReferenceIdeal.τ).loc Cert.ReferenceIdeal.main_arg11)) = (mK ((c.tc : Thread Cert.KernelIdeal.nD Cert.KernelIdeal.τ).loc Cert.KernelIdeal.main_arg11))
      ∧ (mR ((c.tc : Thread Cert.ReferenceIdeal.nD Cert.ReferenceIdeal.τ).loc Cert.ReferenceIdeal.main_arg12)) = (mK ((c.tc : Thread Cert.KernelIdeal.nD Cert.KernelIdeal.τ).loc Cert.KernelIdeal.main_arg12))
      ∧ (mR ((c.tc : Thread Cert.ReferenceIdeal.nD Cert.ReferenceIdeal.τ).loc Cert.ReferenceIdeal.main_arg13)) = (mK ((c.tc : Thread Cert.KernelIdeal.nD Cert.KernelIdeal.τ).loc Cert.KernelIdeal.main_arg13))
      ∧ (mR ((c.tc : Thread Cert.ReferenceIdeal.nD Cert.ReferenceIdeal.τ).loc Cert.ReferenceIdeal.main_arg14)) = (mK ((c.tc : Thread Cert.KernelIdeal.nD Cert.KernelIdeal.τ).loc Cert.KernelIdeal.main_arg14))
      ∧ (mR ((c.tc : Thread Cert.ReferenceIdeal.nD Cert.ReferenceIdeal.τ).loc Cert.ReferenceIdeal.main_arg15)) = (mK ((c.tc : Thread Cert.KernelIdeal.nD Cert.KernelIdeal.τ).loc Cert.KernelIdeal.main_arg15))
      ∧ (mR ((c.tc : Thread Cert.ReferenceIdeal.nD Cert.ReferenceIdeal.τ).loc Cert.ReferenceIdeal.main_arg16)) = (mK ((c.tc : Thread Cert.KernelIdeal.nD Cert.KernelIdeal.τ).loc Cert.KernelIdeal.main_arg16))
      ∧ (mR ((c.tc : Thread Cert.ReferenceIdeal.nD Cert.ReferenceIdeal.τ).loc Cert.ReferenceIdeal.main_arg17)) = (mK ((c.tc : Thread Cert.KernelIdeal.nD Cert.KernelIdeal.τ).loc Cert.KernelIdeal.main_arg17))
      ∧ (mR ((c.tc : Thread Cert.ReferenceIdeal.nD Cert.ReferenceIdeal.τ).loc Cert.ReferenceIdeal.main_arg18)) = (mK ((c.tc : Thread Cert.KernelIdeal.nD Cert.KernelIdeal.τ).loc Cert.KernelIdeal.main_arg18))
      ∧ (mR ((c.tc : Thread Cert.ReferenceIdeal.nD Cert.ReferenceIdeal.τ).loc Cert.ReferenceIdeal.main_arg19)) = (mK ((c.tc : Thread Cert.KernelIdeal.nD Cert.KernelIdeal.τ).loc Cert.KernelIdeal.main_arg19))) :
    Cert.ReferenceIdeal.Value.res_main_v101 (F := Ideal) mR c = Cert.KernelIdeal.Net.OUT mK c := by
  obtain ⟨h0, h1, h2, h3, h4, h5, h6, h7, h8, h9, h10, h11, h12, h13, h14, h15, h16, h17, h18, h19⟩ := hagree
  rw [Cert.ReferenceIdeal.Net.res_eq, h0, h1, h2, h3, h4, h5, h6, h7, h8, h9, h10, h11, h12, h13, h14, h15, h16, h17, h18, h19]
  unfold Cert.ReferenceIdeal.Net.net
  simp only [Cert.ReferenceIdeal.Net.linA_eq _ _ _ Cert.KernelIdeal.Gen.shapeCasts_S1024_S1x1024,
    Cert.ReferenceIdeal.Net.linB_eq _ _ _ Cert.KernelIdeal.Gen.shapeCasts_S128_S1x128,
    Cert.ReferenceIdeal.Net.sage1_eq _ _ _ _ _ Cert.KernelIdeal.Gen.shapeCasts_S256_S1x256,
    Cert.ReferenceIdeal.Net.sage2_eq _ _ _ _ _ Cert.KernelIdeal.Gen.shapeCasts_S256_S1x256,
    Cert.ReferenceIdeal.Net.sage3_eq _ _ _ _ _ Cert.KernelIdeal.Gen.shapeCasts_S256_S1x256,
    mean200_eq, mean500_eq]
  rfl

end Cert.Bridge

end
-- ==== Proof.lean ====
/-
  The certificate: a six-region graph network against its plain reference, equal over the extended reals.

  The kernel program runs two affine layers, three neighbourhood layers and an output affine layer as six tiled
  regions, with the mean aggregation over the edges done by host operations between them; the reference does all of
  it with host operations.  The three frames: the kernel programs' are generated; the reference's is its generated
  run with the result dropped.  The idealization rewrote nothing, so it is preserved trivially.  For the algebraic
  claim the kernel's run (module RunValue) ends with the result buffer at the last segment boundary's contents, which
  is the composition of the layer functions of the launch arguments (modules Blocks0–5 and Chain); the reference's
  generated run ends at a term that is the same composition (modules RefNet and Bridge).
-/
import proofs.«171405_j59785944760472_1_alg».proof.Defs
import proofs.«171405_j59785944760472_1_alg».proof.Proof.Gen.Kernel
import proofs.«171405_j59785944760472_1_alg».proof.Proof.Gen.Kernel.Frame
import proofs.«171405_j59785944760472_1_alg».proof.Proof.Gen.KernelIdeal
import proofs.«171405_j59785944760472_1_alg».proof.Proof.Gen.KernelIdeal.Frame
import proofs.«171405_j59785944760472_1_alg».proof.Proof.Gen.ReferenceIdeal
import proofs.«171405_j59785944760472_1_alg».proof.Proof.Gen.ReferenceIdeal.Run
import proofs.«171405_j59785944760472_1_alg».proof.Proof.Gen.Pre_finite_inputs
import proofs.«171405_j59785944760472_1_alg».proof.Proof.RunValue
import proofs.«171405_j59785944760472_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the network of the launch arguments. -/
theorem algebraic : Cert.algebraic_KernelIdeal_ReferenceIdeal := by
  intro m ρ m' ρ' _ hagree
  refine ⟨fun c => Cert.KernelIdeal.Net.OUT m c, ?_, ?_⟩
  · exact (θ_run Cert.KernelIdeal.defs _ _).mono
      (fun r h c => ⟨(h c).1.trans (Cert.KernelIdeal.Net.out_eq m ρ c), (h c).2⟩)
      (Cert.KernelIdeal.RunValue.run_value (F := Ideal) m ρ)
  · exact (θ_run Cert.ReferenceIdeal.defs _ _).mono
      (fun r h c => ⟨(h c).1.trans (Cert.Bridge.net_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
